-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128 : Shape := ⟨3, ![4, 64, 128]⟩
abbrev S64x128 : Shape := ⟨2, ![64, 128]⟩
abbrev S128x64 : Shape := ⟨2, ![128, 64]⟩
abbrev S16384x65 : Shape := ⟨2, ![16384, 65]⟩
abbrev S4x16384x64 : Shape := ⟨3, ![4, 16384, 64]⟩
abbrev S_ : Shape := ⟨0, ![]⟩

class Facts : Prop where
  bcast_S_S4x64x128 : S_.BroadcastsInDim S4x64x128 (![] : Fin 0 → Fin S4x64x128.rank)
  reducesTo_S4x64x128_S_d0_1_2 : S4x64x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S16384x65 : S_.BroadcastsInDim S16384x65 (![] : Fin 0 → Fin S16384x65.rank)
  reducesTo_S16384x65_S_d0_1 : S16384x65.ReducesTo [0, 1] S_
  bcast_S_S4x16384x64 : S_.BroadcastsInDim S4x16384x64 (![] : Fin 0 → Fin S4x16384x64.rank)
  reducesTo_S4x16384x64_S_d0_1_2 : S4x16384x64.ReducesTo [0, 1, 2] S_

variable [Facts]

def fn_part1 {F : FTy → Type} [FloatOps F] (main_arg4 : FVec F S4x16384x64 .f32) (main_v13 : IVec S_ 1) (main_v16 : IVec S16384x65 1) : IVec S_ 1 :=
  let main_c_5 : IVec S_ 1 := constantI S_ 1 1#1
  let main_v17 : IVec S_ 1 := (fun x v => Host.reduce IntOp.andi x v reducesTo_S16384x65_S_d0_1 h_S_) main_v16 main_c_5
  let main_v18 : IVec S_ 1 := andi main_v13 main_v17
  let main_v19 : FVec F S4x16384x64 .f32 := Host.absf main_arg4
  let main_cst_6 : FVec F S_ .f32 := constant S_ .f32 0x7F800000#32
  let main_v20 : FVec F S4x16384x64 .f32 := broadcastInDim S4x16384x64 ![] bcast_S_S4x16384x64 main_cst_6
  let main_v21 : IVec S4x16384x64 1 := cmpf .olt main_v19 main_v20
  let main_c_7 : IVec S_ 1 := constantI S_ 1 1#1
  let main_v22 : IVec S_ 1 := (fun x v => Host.reduce IntOp.andi x v reducesTo_S4x16384x64_S_d0_1_2 h_S_) main_v21 main_c_7
  let main_v23 : IVec S_ 1 := andi main_v18 main_v22
  main_v23

def fn {F : FTy → Type} [FloatOps F] (main_arg0 : FVec F S4x64x128 .f32) (main_arg1 : FVec F S64x128 .f32) (main_arg2 : FVec F S128x64 .f32) (main_arg3 : FVec F S16384x65 .f32) (main_arg4 : FVec F S4x16384x64 .f32) : IVec S_ 1 :=
  let main_v0 : FVec F S4x64x128 .f32 := Host.absf main_arg0
  let main_cst : FVec F S_ .f32 := constant S_ .f32 0x7F800000#32
  let main_v1 : FVec F S4x64x128 .f32 := broadcastInDim S4x64x128 ![] bcast_S_S4x64x128 main_cst
  let main_v2 : IVec S4x64x128 1 := cmpf .olt main_v0 main_v1
  let main_c : IVec S_ 1 := constantI S_ 1 1#1
  let main_v3 : IVec S_ 1 := (fun x v => Host.reduce IntOp.andi x v reducesTo_S4x64x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S16384x65 .f32 := Host.absf main_arg3
  let main_cst_4 : FVec F S_ .f32 := constant S_ .f32 0x7F800000#32
  let main_v15 : FVec F S16384x65 .f32 := broadcastInDim S16384x65 ![] bcast_S_S16384x65 main_cst_4
  let main_v16 : IVec S16384x65 1 := cmpf .olt main_v14 main_v15
  fn_part1 (F := F) main_arg4 main_v13 main_v16
-- ==== Kernel.lean ====
abbrev S4x64x128 : Shape := ⟨3, ![4, 64, 128]⟩
abbrev S64x128 : Shape := ⟨2, ![64, 128]⟩
abbrev S128x64 : Shape := ⟨2, ![128, 64]⟩
abbrev S16384x65 : Shape := ⟨2, ![16384, 65]⟩
abbrev S4x16384x64 : Shape := ⟨3, ![4, 16384, 64]⟩
abbrev S65x16384 : Shape := ⟨2, ![65, 16384]⟩
abbrev S4x64x16384 : Shape := ⟨3, ![4, 64, 16384]⟩
abbrev S1x64x128 : Shape := ⟨3, ![1, 64, 128]⟩
abbrev S1x64x2048 : Shape := ⟨3, ![1, 64, 2048]⟩
abbrev S64x64 : Shape := ⟨2, ![64, 64]⟩
abbrev S64 : Shape := ⟨1, ![64]⟩
abbrev S64x1 : Shape := ⟨2, ![64, 1]⟩
abbrev S64x65 : Shape := ⟨2, ![64, 65]⟩
abbrev S64x16384 : Shape := ⟨2, ![64, 16384]⟩
abbrev S64x2048 : Shape := ⟨2, ![64, 2048]⟩

abbrev nBuf : Space → Nat
  | .hbm => 9
  | .vmem => 23
  | .smem => 0
  | _ => 0

abbrev bufTy : (tb : Table) → Fin (tcTables nBuf tb) → BufTy
  | .hbm, ⟨0, _⟩ => ⟨S4x64x128, .f32⟩
  | .hbm, ⟨1, _⟩ => ⟨S64x128, .f32⟩
  | .hbm, ⟨2, _⟩ => ⟨S128x64, .f32⟩
  | .hbm, ⟨3, _⟩ => ⟨S16384x65, .f32⟩
  | .hbm, ⟨4, _⟩ => ⟨S4x16384x64, .f32⟩
  | .hbm, ⟨5, _⟩ => ⟨S65x16384, .f32⟩
  | .hbm, ⟨6, _⟩ => ⟨S4x64x16384, .f32⟩
  | .hbm, ⟨7, _⟩ => ⟨S64x128, .f32⟩
  | .hbm, ⟨8, _⟩ => ⟨S4x64x128, .f32⟩
  | .local _ .vmem, ⟨0, _⟩ => ⟨S1x64x128, .f32⟩
  | .local _ .vmem, ⟨1, _⟩ => ⟨S1x64x128, .f32⟩
  | .local _ .vmem, ⟨2, _⟩ => ⟨S64x128, .f32⟩
  | .local _ .vmem, ⟨3, _⟩ => ⟨S64x128, .f32⟩
  | .local _ .vmem, ⟨4, _⟩ => ⟨S65x16384, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x128, .f32⟩
  | .local _ .vmem, ⟨22, _⟩ => ⟨S1x64x128, .f32⟩
  | _, _ => ⟨S4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_7 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_8 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_9 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_10 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_11 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S16384x65_S65x16384_1_0 : S16384x65.Transposes [1, 0] S65x16384
  transposes_S4x16384x64_S4x64x16384_0_2_1 : S4x16384x64.Transposes [0, 2, 1] S4x64x16384
  transposes_S128x64_S64x128_1_0 : S128x64.Transposes [1, 0] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S64x128_S64x128_0_0 : ∀ a, (![0, 0] : Fin 2 → Nat) a + S64x128.size a ≤ S64x128.size a
  h_S64x128 : 0 < S64x128.numel
  reduces_S64x64_S64 : S64x64.Reduces [1] S64
  shapeCasts_S64_S64x1 : S64.ShapeCasts S64x1
  concatenates_S64x64_S64x1_S64x65_d1 : Shape.Concatenates [S64x64, S64x1] S64x65 1
  broadcasts_S64x1_S64x65 : S64x1.Broadcasts S64x65
  inb_S65x16384_S65x16384_0_0 : ∀ a, (![0, 0] : Fin 2 → Nat) a + S65x16384.size a ≤ S65x16384.size a
  h_S65x16384 : 0 < S65x16384.numel
  shapeCasts_S65x16384_S65x16384 : S65x16384.ShapeCasts S65x16384
  reduces_S64x16384_S64 : S64x16384.Reduces [1] S64
  broadcasts_S64x1_S64x16384 : S64x1.Broadcasts S64x16384
  slices_S64x16384_o0_0_S64x2048 : S64x16384.Slices ![0, 0] S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  slices_S64x16384_o0_2048_S64x2048 : S64x16384.Slices ![0, 2048] S64x2048
  slices_S64x16384_o0_4096_S64x2048 : S64x16384.Slices ![0, 4096] S64x2048
  slices_S64x16384_o0_6144_S64x2048 : S64x16384.Slices ![0, 6144] S64x2048
  slices_S64x16384_o0_8192_S64x2048 : S64x16384.Slices ![0, 8192] S64x2048
  slices_S64x16384_o0_10240_S64x2048 : S64x16384.Slices ![0, 10240] S64x2048
  slices_S64x16384_o0_12288_S64x2048 : S64x16384.Slices ![0, 12288] S64x2048
  slices_S64x16384_o0_14336_S64x2048 : S64x16384.Slices ![0, 14336] S64x2048
  broadcasts_S64x1_S64x64 : S64x1.Broadcasts S64x64
  shapeCasts_S64x128_S64x128 : S64x128.ShapeCasts S64x128
  shapeCasts_S64x128_S1x64x128 : S64x128.ShapeCasts S1x64x128
  dot_S64x128_S64x128_S64x64_1_1_0_0_n_n_wf : DotDims.WF S64x128 S64x128 S64x64 [1] [1] [0] [0] [] []
  dot_S64x65_S65x16384_S64x16384_1_0_0_1_n_n_wf : DotDims.WF S64x65 S65x16384 S64x16384 [1] [0] [0] [1] [] []
  dot_S64x2048_S64x2048_S64x64_1_1_0_0_n_n_wf : DotDims.WF S64x2048 S64x2048 S64x64 [1] [1] [0] [0] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x64x128.size a
  hwx0_0 : ∀ i : grid0.Coords, EltTy.bits .f32 = 32 ∨ (Rect.block (s := S4x64x128) S1x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x16384.size a ≤ S65x16384.size a
  hwx0_3 : ∀ i : grid0.Coords, EltTy.bits .f32 = 32 ∨ (Rect.block (s := S65x16384) S65x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S4x64x16384.size a
  hwx0_4 : ∀ i : grid0.Coords, EltTy.bits .f32 = 32 ∨ (Rect.block (s := S4x64x16384) S1x64x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x2048.size a ≤ S4x64x16384.size a
  hwx0_5 : ∀ i : grid0.Coords, EltTy.bits .f32 = 32 ∨ (Rect.block (s := S4x64x16384) S1x64x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x2048.size a ≤ S4x64x16384.size a
  hwx0_6 : ∀ i : grid0.Coords, EltTy.bits .f32 = 32 ∨ (Rect.block (s := S4x64x16384) S1x64x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x2048.size a ≤ S4x64x16384.size a
  hwx0_7 : ∀ i : grid0.Coords, EltTy.bits .f32 = 32 ∨ (Rect.block (s := S4x64x16384) S1x64x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x2048.size a ≤ S4x64x16384.size a
  hwx0_8 : ∀ i : grid0.Coords, EltTy.bits .f32 = 32 ∨ (Rect.block (s := S4x64x16384) S1x64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x2048.size a ≤ S4x64x16384.size a
  hwx0_9 : ∀ i : grid0.Coords, EltTy.bits .f32 = 32 ∨ (Rect.block (s := S4x64x16384) S1x64x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x2048.size a ≤ S4x64x16384.size a
  hwx0_10 : ∀ i : grid0.Coords, EltTy.bits .f32 = 32 ∨ (Rect.block (s := S4x64x16384) S1x64x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x2048.size a ≤ S4x64x16384.size a
  hwx0_11 : ∀ i : grid0.Coords, EltTy.bits .f32 = 32 ∨ (Rect.block (s := S4x64x16384) S1x64x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x128.size a ≤ S4x64x128.size a
  hwx0_12 : ∀ i : grid0.Coords, EltTy.bits .f32 = 32 ∨ (Rect.block (s := S4x64x128) S1x64x128.size (cc0_transform_12 i) (hinb0_12 i)).WholeWords (EltTy.packing .f32)

variable [Facts₀]

def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf
def dot_S64x65_S65x16384_S64x16384_1_0_0_1_n_n : DotDims S64x65 S65x16384 S64x16384 where
  lhsContracting := [1]
  rhsContracting := [0]
  lhsNonContracting := [0]
  rhsNonContracting := [1]
  lhsBatch := []
  rhsBatch := []
  wf := dot_S64x65_S65x16384_S64x16384_1_0_0_1_n_n_wf
def dot_S64x2048_S64x2048_S64x64_1_1_0_0_n_n : DotDims S64x2048 S64x2048 S64x64 where
  lhsContracting := [1]
  rhsContracting := [1]
  lhsNonContracting := [0]
  rhsNonContracting := [0]
  lhsBatch := []
  rhsBatch := []
  wf := dot_S64x2048_S64x2048_S64x64_1_1_0_0_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S65x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x64x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x64x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x64x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x64x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x64x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x64x128 : Shape := ⟨3, ![4, 64, 128]⟩
abbrev S64x128 : Shape := ⟨2, ![64, 128]⟩
abbrev S128x64 : Shape := ⟨2, ![128, 64]⟩
abbrev S16384x65 : Shape := ⟨2, ![16384, 65]⟩
abbrev S4x16384x64 : Shape := ⟨3, ![4, 16384, 64]⟩
abbrev S4x64x64 : Shape := ⟨3, ![4, 64, 64]⟩
abbrev S_ : Shape := ⟨0, ![]⟩
abbrev S4x64 : Shape := ⟨2, ![4, 64]⟩
abbrev S4x64x1 : Shape := ⟨3, ![4, 64, 1]⟩
abbrev S4x64x65 : Shape := ⟨3, ![4, 64, 65]⟩
abbrev S4x64x16384 : Shape := ⟨3, ![4, 64, 16384]⟩

abbrev nBuf : Space → Nat
  | .hbm => 56
  | .vmem => 0
  | .smem => 0
  | _ => 0

abbrev bufTy : (tb : Table) → Fin (tcTables nBuf tb) → BufTy
  | .hbm, ⟨0, _⟩ => ⟨S4x64x128, .f32⟩
  | .hbm, ⟨1, _⟩ => ⟨S64x128, .f32⟩
  | .hbm, ⟨2, _⟩ => ⟨S128x64, .f32⟩
  | .hbm, ⟨3, _⟩ => ⟨S16384x65, .f32⟩
  | .hbm, ⟨4, _⟩ => ⟨S4x16384x64, .f32⟩
  | .hbm, ⟨5, _⟩ => ⟨S4x64x64, .f32⟩
  | .hbm, ⟨6, _⟩ => ⟨S_, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S_, .f32⟩
  | .hbm, ⟨11, _⟩ => ⟨S4x64, .f32⟩
  | .hbm, ⟨12, _⟩ => ⟨S4x64x1, .f32⟩
  | .hbm, ⟨13, _⟩ => ⟨S_, .f32⟩
  | .hbm, ⟨14, _⟩ => ⟨S4x64x1, .f32⟩
  | .hbm, ⟨15, _⟩ => ⟨S4x64x1, .f32⟩
  | .hbm, ⟨16, _⟩ => ⟨S4x64x64, .f32⟩
  | .hbm, ⟨17, _⟩ => ⟨S4x64x64, .f32⟩
  | .hbm, ⟨18, _⟩ => ⟨S_, .f32⟩
  | .hbm, ⟨19, _⟩ => ⟨S4x64x1, .f32⟩
  | .hbm, ⟨20, _⟩ => ⟨S4x64x1, .f32⟩
  | .hbm, ⟨21, _⟩ => ⟨S4x64x65, .f32⟩
  | .hbm, ⟨22, _⟩ => ⟨S4x64x65, .f32⟩
  | .hbm, ⟨23, _⟩ => ⟨S4x64x16384, .f32⟩
  | .hbm, ⟨24, _⟩ => ⟨S_, .f32⟩
  | .hbm, ⟨25, _⟩ => ⟨S4x64x16384, .f32⟩
  | .hbm, ⟨26, _⟩ => ⟨S4x64x16384, .f32⟩
  | .hbm, ⟨27, _⟩ => ⟨S_, .f32⟩
  | .hbm, ⟨28, _⟩ => ⟨S4x64, .f32⟩
  | .hbm, ⟨29, _⟩ => ⟨S_, .f32⟩
  | .hbm, ⟨30, _⟩ => ⟨S4x64, .f32⟩
  | .hbm, ⟨31, _⟩ => ⟨S4x64, .i1⟩
  | .hbm, ⟨32, _⟩ => ⟨S_, .f32⟩
  | .hbm, ⟨33, _⟩ => ⟨S4x64, .f32⟩
  | .hbm, ⟨34, _⟩ => ⟨S4x64, .f32⟩
  | .hbm, ⟨35, _⟩ => ⟨S_, .f32⟩
  | .hbm, ⟨36, _⟩ => ⟨S_, .f32⟩
  | .hbm, ⟨37, _⟩ => ⟨S4x64, .f32⟩
  | .hbm, ⟨38, _⟩ => ⟨S4x64, .f32⟩
  | .hbm, ⟨39, _⟩ => ⟨S4x64x1, .f32⟩
  | .hbm, ⟨40, _⟩ => ⟨S4x64x16384, .f32⟩
  | .hbm, ⟨41, _⟩ => ⟨S4x64x16384, .i1⟩
  | .hbm, ⟨42, _⟩ => ⟨S_, .f32⟩
  | .hbm, ⟨43, _⟩ => ⟨S_, .f32⟩
  | .hbm, ⟨44, _⟩ => ⟨S4x64x16384, .f32⟩
  | .hbm, ⟨45, _⟩ => ⟨S4x64x16384, .f32⟩
  | .hbm, ⟨46, _⟩ => ⟨S_, .f32⟩
  | .hbm, ⟨47, _⟩ => ⟨S4x64, .f32⟩
  | .hbm, ⟨48, _⟩ => ⟨S4x64x1, .f32⟩
  | .hbm, ⟨49, _⟩ => ⟨S_, .f32⟩
  | .hbm, ⟨50, _⟩ => ⟨S4x64x1, .f32⟩
  | .hbm, ⟨51, _⟩ => ⟨S4x64x1, .f32⟩
  | .hbm, ⟨52, _⟩ => ⟨S4x64x16384, .f32⟩
  | .hbm, ⟨53, _⟩ => ⟨S4x64x16384, .f32⟩
  | .hbm, ⟨54, _⟩ => ⟨S4x64x64, .f32⟩
  | .hbm, ⟨55, _⟩ => ⟨S4x64x128, .f32⟩
  | _, _ => ⟨S4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  bcast_S_S4x64x64 : S_.BroadcastsInDim S4x64x64 (![] : Fin 0 → Fin S4x64x64.rank)
  reducesTo_S4x64x64_S4x64_d2 : S4x64x64.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x64_0_1_2 : S4x64x1.BroadcastsInDim S4x64x64 (![0, 1, 2] : Fin 3 → Fin S4x64x64.rank)
  concatenates_S4x64x64_S4x64x1_S4x64x65_d2 : Shape.Concatenates [S4x64x64, S4x64x1] S4x64x65 2
  bcast_S_S4x64x16384 : S_.BroadcastsInDim S4x64x16384 (![] : Fin 0 → Fin S4x64x16384.rank)
  reducesTo_S4x64x16384_S4x64_d2 : S4x64x16384.ReducesTo [2] S4x64
  bcast_S_S4x64 : S_.BroadcastsInDim S4x64 (![] : Fin 0 → Fin S4x64.rank)
  bcast_S4x64x1_S4x64x16384_0_1_2 : S4x64x1.BroadcastsInDim S4x64x16384 (![0, 1, 2] : Fin 3 → Fin S4x64x16384.rank)
  dot_S4x64x128_S64x128_S4x64x64_2_1_01_0_n_n_wf : DotDims.WF S4x64x128 S64x128 S4x64x64 [2] [1] [0, 1] [0] [] []
  dot_S4x64x65_S16384x65_S4x64x16384_2_1_01_0_n_n_wf : DotDims.WF S4x64x65 S16384x65 S4x64x16384 [2] [1] [0, 1] [0] [] []
  dot_S4x64x16384_S4x16384x64_S4x64x64_2_1_1_2_0_0_wf : DotDims.WF S4x64x16384 S4x16384x64 S4x64x64 [2] [1] [1] [2] [0] [0]
  dot_S4x64x64_S128x64_S4x64x128_2_1_01_0_n_n_wf : DotDims.WF S4x64x64 S128x64 S4x64x128 [2] [1] [0, 1] [0] [] []

variable [Facts₀]

def dot_S4x64x128_S64x128_S4x64x64_2_1_01_0_n_n : DotDims S4x64x128 S64x128 S4x64x64 where
  lhsContracting := [2]
  rhsContracting := [1]
  lhsNonContracting := [0, 1]
  rhsNonContracting := [0]
  lhsBatch := []
  rhsBatch := []
  wf := dot_S4x64x128_S64x128_S4x64x64_2_1_01_0_n_n_wf
def dot_S4x64x65_S16384x65_S4x64x16384_2_1_01_0_n_n : DotDims S4x64x65 S16384x65 S4x64x16384 where
  lhsContracting := [2]
  rhsContracting := [1]
  lhsNonContracting := [0, 1]
  rhsNonContracting := [0]
  lhsBatch := []
  rhsBatch := []
  wf := dot_S4x64x65_S16384x65_S4x64x16384_2_1_01_0_n_n_wf
def dot_S4x64x16384_S4x16384x64_S4x64x64_2_1_1_2_0_0 : DotDims S4x64x16384 S4x16384x64 S4x64x64 where
  lhsContracting := [2]
  rhsContracting := [1]
  lhsNonContracting := [1]
  rhsNonContracting := [2]
  lhsBatch := [0]
  rhsBatch := [0]
  wf := dot_S4x64x16384_S4x16384x64_S4x64x64_2_1_1_2_0_0_wf
def dot_S4x64x64_S128x64_S4x64x128_2_1_01_0_n_n : DotDims S4x64x64 S128x64 S4x64x128 where
  lhsContracting := [2]
  rhsContracting := [1]
  lhsNonContracting := [0, 1]
  rhsNonContracting := [0]
  lhsBatch := []
  rhsBatch := []
  wf := dot_S4x64x64_S128x64_S4x64x128_2_1_01_0_n_n_wf

class Facts : Prop extends Facts₀ where

variable [Facts]
-- ==== Proof.KIData.lean ====
/- The proof data of the one pipeline of `KernelIdeal`'s @main: the arrays as the region finds them (after the three
   host transposes), each window's block at a grid point, what the body leaves in the output window's buffer as a
   function of the twelve input blocks, and the shares: the eight windows that read one array hold an eighth of it
   each (the leaves of a depth-three split of the full share), every other window its array whole. -/
import proofs.«162409_g83107617177736_cont_sun_m_307_6_alg».proof.Proof.Gen.KernelIdeal.Launch
import proofs.«162409_g83107617177736_cont_sun_m_307_6_alg».proof.Proof.Gen.KernelIdeal.Skeleton
import proofs.«162409_g83107617177736_cont_sun_m_307_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the three host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each a whole staging buffer -/

abbrev rA : Rect S1x64x128 := Rect.unit (s := S1x64x128) ![0, 0, 0] S1x64x128.size inb_S1x64x128_S1x64x128_0_0_0
abbrev rB : Rect S64x128 := Rect.unit (s := S64x128) ![0, 0] S64x128.size inb_S64x128_S64x128_0_0
abbrev rC : Rect S65x16384 := Rect.unit (s := S65x16384) ![0, 0] S65x16384.size inb_S65x16384_S65x16384_0_0
abbrev rD : Rect S1x64x2048 := Rect.unit (s := S1x64x2048) ![0, 0, 0] S1x64x2048.size inb_S1x64x2048_S1x64x2048_0_0_0

/-! ## What the body leaves in the output window's buffer -/

/-- The output window's staging buffer after the body, from the twelve input windows' blocks: its one store,
    of the whole buffer, of the payload chain over the loaded blocks. -/
def outBlock (x0 : Vec F S1x64x128 .f32) (x1 x2 : Vec F S64x128 .f32) (x3 : Vec F S65x16384 .f32) (x4 x5 x6 x7 x8 x9 x10 x11 : Vec F S1x64x2048 .f32) : Vec F S1x64x128 .f32 :=
  View.canon [⟨rA, k0_pay1 (k0_pay3 (View.ld x0 rA) (View.ld x1 rB) (View.ld x3 rC))
    (k0_pay5 (k0_pay2 (View.ld x0 rA) (View.ld x1 rB) (View.ld x3 rC)) (k0_pay4 (View.ld x0 rA) (View.ld x1 rB) (View.ld x3 rC))
      (View.ld x4 rD) (View.ld x5 rD) (View.ld x6 rD) (View.ld x7 rD) (View.ld x8 rD) (View.ld x9 rD) (View.ld x10 rD))
    (k0_pay6 (k0_pay2 (View.ld x0 rA) (View.ld x1 rB) (View.ld x3 rC))) (View.ld x11 rD) (View.ld x2 rB)⟩]

/-! ## The shares -/

/-- The share each window holds of its array: the eight windows on the one shared array an eighth each, the
    leaves of the full share split three times; every other window the whole. -/
def shareOf : Fin 13 → PosShare TreeShare := fun w => match w with
  | ⟨0, _⟩ => fullShare
  | ⟨1, _⟩ => fullShare
  | ⟨2, _⟩ => fullShare
  | ⟨3, _⟩ => fullShare
  | ⟨4, _⟩ => fullShare.left.left.left
  | ⟨5, _⟩ => fullShare.left.left.right
  | ⟨6, _⟩ => fullShare.left.right.left
  | ⟨7, _⟩ => fullShare.left.right.right
  | ⟨8, _⟩ => fullShare.right.left.left
  | ⟨9, _⟩ => fullShare.right.left.right
  | ⟨10, _⟩ => fullShare.right.right.left
  | ⟨11, _⟩ => fullShare.right.right.right
  | ⟨12, _⟩ => fullShare
  | ⟨_ + 13, h⟩ => absurd h (Nat.not_lt.2 (Nat.le_add_left _ _))

/-! ## The pipeline's proof data -/

/-- The proof data of the one pipeline on core `c`: the arrays as the region finds them (`V`); after the body at
    point `t` each input's buffer at its block and the output's at `outBlock` of the input blocks; the invariant the
    scoped rest and the generator register, untouched; nothing owed; the shares `shareOf`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q := shareOf
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem q_eq (c : Dev nD) (w : Fin cfg0.W) : (dats m 0 c).q w = shareOf w := by dsimp only [dats]

end Cert.KernelIdeal.Hand

end
-- ==== Proof.KIFrame.lean ====
/- The frame of `KernelIdeal`'s @main: the body's triple on whole staging buffers, each input window found at its block at
   every point, the body obligation, the launch for windows that share an array (the one shared array's full share
   dealt in eighths to the eight windows that read it), and the frame claim: every weakly fair run terminates
   without fault and leaves the five argument arrays as launched. -/
import proofs.«162409_g83107617177736_cont_sun_m_307_6_alg».proof.Proof.KIData

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output buffer's one store covers it -/

theorem cover12 (p0 : Vec F S1x64x128 .f32) (y : S1x64x128.Idx) :
    ∃ pc ∈ ([⟨rA, p0⟩] : List (View.Piece (Elt F) S1x64x128 .f32)), y ∈ pc.1.set :=
  View.cover_of_tiled [⟨rA, p0⟩] S1x64x128.size (by rfl) y

/-! ## The body's triple -/

set_option maxHeartbeats 4000000 in
/-- The kernel body on whole staging memrefs, the twelve inputs' at read contents `xW` and the output's at anything,
    runs to the continuation holding the inputs' as they were and the output's at `outBlock` of the inputs'. -/
theorem sound_kernel (c : Dev nD) (E : Set ℕ) (i : grid0.Coords) (arg1 : Memref sig .tc .vmem S1x64x128 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S65x16384 .f32) (harg4 : arg4.IsWhole) (arg5 : Memref sig .tc .vmem S1x64x2048 .f32) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole) (arg13 : Memref sig .tc .vmem S1x64x128 .f32) (harg13 : arg13.IsWhole)
    (x0 : Vec F S1x64x128 .f32) (x1 x2 : Vec F S64x128 .f32) (x3 : Vec F S65x16384 .f32) (x4 x5 x6 x7 x8 x9 x10 x11 : Vec F S1x64x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outBlock x0 x1 x2 x3 x4 x5 x6 x7 x8 x9 x10 x11)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover12 _)

/-! ## Each input window holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the shared array's full share dealt to the windows that read it -/

/-- The distinct buffers behind the thirteen windows' arrays, one by one: six. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_v2) ↦{fullShare} V' main_v2) ∗ (((c : Thread nD τ).loc main_v0) ↦{fullShare} V' main_v0) ∗ (((c : Thread nD τ).loc main_v1) ↦{fullShare} V' main_v1) ∗ (((c : Thread nD τ).loc main_v3) ↦{fullShare} V' main_v3)) := by
  unfold Pipeline.arrBufs
  exact bigSep_eq_bigSepL_of_eq [main_arg0, main_arg1, main_v2, main_v0, main_v1, main_v3] (by decide) (by decide) _

/-- An input window holds its array at the share the proof data names; -/
theorem share_in (c : Dev nD) (w : Fin cfg0.W) (h : (cfg0.win w).isOut = false) : (dats m 0 c).share w = shareOf w := by
  unfold Dat.share; rw [if_neg (by rw [h]; exact Bool.false_ne_true)]; exact q_eq m c w

/-- the output window holds its array whole. -/
theorem share_out (c : Dev nD) : (dats m 0 c).share 12 = fullShare := by
  unfold Dat.share; exact if_pos rfl

theorem share0_0 (c : Dev nD) : (dats m 0 c).share 0 = fullShare := (share_in m c 0 rfl).trans rfl
theorem share0_1 (c : Dev nD) : (dats m 0 c).share 1 = fullShare := (share_in m c 1 rfl).trans rfl
theorem share0_2 (c : Dev nD) : (dats m 0 c).share 2 = fullShare := (share_in m c 2 rfl).trans rfl
theorem share0_3 (c : Dev nD) : (dats m 0 c).share 3 = fullShare := (share_in m c 3 rfl).trans rfl
theorem share0_4 (c : Dev nD) : (dats m 0 c).share 4 = fullShare.left.left.left := (share_in m c 4 rfl).trans rfl
theorem share0_5 (c : Dev nD) : (dats m 0 c).share 5 = fullShare.left.left.right := (share_in m c 5 rfl).trans rfl
theorem share0_6 (c : Dev nD) : (dats m 0 c).share 6 = fullShare.left.right.left := (share_in m c 6 rfl).trans rfl
theorem share0_7 (c : Dev nD) : (dats m 0 c).share 7 = fullShare.left.right.right := (share_in m c 7 rfl).trans rfl
theorem share0_8 (c : Dev nD) : (dats m 0 c).share 8 = fullShare.right.left.left := (share_in m c 8 rfl).trans rfl
theorem share0_9 (c : Dev nD) : (dats m 0 c).share 9 = fullShare.right.left.right := (share_in m c 9 rfl).trans rfl
theorem share0_10 (c : Dev nD) : (dats m 0 c).share 10 = fullShare.right.right.left := (share_in m c 10 rfl).trans rfl
theorem share0_11 (c : Dev nD) : (dats m 0 c).share 11 = fullShare.right.right.right := (share_in m c 11 rfl).trans rfl

/-- Window `w`'s array at entry, as the pipeline holds it: the whole buffer at the window's share, at the contents
    the region finds. -/
theorem conj_eq (c : Dev nD) (w : Fin cfg0.W) :
    ((((cfg0.win w).arr.view.loc (c.tc : Thread nD τ)) ↦[(cfg0.win w).arr.view.set]{(dats m 0 c).share w} (dats m 0 c).arrAt w 0 : sProp 𝕄))
      = (((c.tc : Thread nD τ).loc (Pipeline.arrRef spec0 w)) ↦{(dats m 0 c).share w} V m c (Pipeline.arrRef spec0 w)) := by
  rw [(arr_whole0 w).set_eq_univ, show (dats m 0 c).arrAt w 0 = (dats m 0 c).A w from rfl, A_eq]

theorem arrRef0_0 : Pipeline.arrRef spec0 0 = main_arg0 := rfl
theorem arrRef0_1 : Pipeline.arrRef spec0 1 = main_arg1 := rfl
theorem arrRef0_2 : Pipeline.arrRef spec0 2 = main_v2 := rfl
theorem arrRef0_3 : Pipeline.arrRef spec0 3 = main_v0 := rfl
theorem arrRef0_4 : Pipeline.arrRef spec0 4 = main_v1 := rfl
theorem arrRef0_5 : Pipeline.arrRef spec0 5 = main_v1 := rfl
theorem arrRef0_6 : Pipeline.arrRef spec0 6 = main_v1 := rfl
theorem arrRef0_7 : Pipeline.arrRef spec0 7 = main_v1 := rfl
theorem arrRef0_8 : Pipeline.arrRef spec0 8 = main_v1 := rfl
theorem arrRef0_9 : Pipeline.arrRef spec0 9 = main_v1 := rfl
theorem arrRef0_10 : Pipeline.arrRef spec0 10 = main_v1 := rfl
theorem arrRef0_11 : Pipeline.arrRef spec0 11 = main_v1 := rfl
theorem arrRef0_12 : Pipeline.arrRef spec0 12 = main_v3 := rfl

set_option maxHeartbeats 1000000 in
/-- The pipeline's thirteen arrays at entry, one by one: each window's array whole, at the window's share, at the
    contents the region finds. -/
theorem arrays_eq_chain (c : Dev nD) :
    (dats m 0 c).arrays ((dats m 0 c).arrAt · 0)
      = iprop((((c.tc : Thread nD τ).loc main_arg0) ↦{fullShare} V m c main_arg0) ∗ (((c.tc : Thread nD τ).loc main_arg1) ↦{fullShare} V m c main_arg1) ∗ (((c.tc : Thread nD τ).loc main_v2) ↦{fullShare} V m c main_v2) ∗ (((c.tc : Thread nD τ).loc main_v0) ↦{fullShare} V m c main_v0) ∗ (((c.tc : Thread nD τ).loc main_v1) ↦{fullShare.left.left.left} V m c main_v1) ∗ (((c.tc : Thread nD τ).loc main_v1) ↦{fullShare.left.left.right} V m c main_v1) ∗ (((c.tc : Thread nD τ).loc main_v1) ↦{fullShare.left.right.left} V m c main_v1) ∗ (((c.tc : Thread nD τ).loc main_v1) ↦{fullShare.left.right.right} V m c main_v1) ∗ (((c.tc : Thread nD τ).loc main_v1) ↦{fullShare.right.left.left} V m c main_v1) ∗ (((c.tc : Thread nD τ).loc main_v1) ↦{fullShare.right.left.right} V m c main_v1) ∗ (((c.tc : Thread nD τ).loc main_v1) ↦{fullShare.right.right.left} V m c main_v1) ∗ (((c.tc : Thread nD τ).loc main_v1) ↦{fullShare.right.right.right} V m c main_v1) ∗ (((c.tc : Thread nD τ).loc main_v3) ↦{fullShare} V m c main_v3)) := by
  unfold Dat.arrays
  rw [bigSep_W0]
  rw [conj_eq m c 0, conj_eq m c 1, conj_eq m c 2, conj_eq m c 3, conj_eq m c 4, conj_eq m c 5, conj_eq m c 6, conj_eq m c 7, conj_eq m c 8, conj_eq m c 9, conj_eq m c 10, conj_eq m c 11, conj_eq m c 12]
  rw [share0_0 m c, share0_1 m c, share0_2 m c, share0_3 m c, share0_4 m c, share0_5 m c, share0_6 m c, share0_7 m c, share0_8 m c, share0_9 m c, share0_10 m c, share0_11 m c, share_out m c]

set_option maxHeartbeats 1000000 in
/-- The six buffers, each whole at the full share, make the pipeline's thirteen arrays at entry: the array eight
    windows read is split three times along its share, an eighth to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq_chain]
  iintro ⟨H0, H1, H2, H3, H4, H5⟩
  ihave H4 := (pointsTo_share (PosShare.mem_left_op_right fullShare)).1 $$ H4
  icases H4 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  ihave HLL := (pointsTo_share (PosShare.mem_left_op_right fullShare.left.left)).1 $$ HLL
  icases HLL with ⟨HLLL, HLLR⟩
  ihave HLR := (pointsTo_share (PosShare.mem_left_op_right fullShare.left.right)).1 $$ HLR
  icases HLR with ⟨HLRL, HLRR⟩
  ihave HRL := (pointsTo_share (PosShare.mem_left_op_right fullShare.right.left)).1 $$ HRL
  icases HRL with ⟨HRLL, HRLR⟩
  ihave HRR := (pointsTo_share (PosShare.mem_left_op_right fullShare.right.right)).1 $$ HRR
  icases HRR with ⟨HRRL, HRRR⟩
  isplitl [H0]; · iexact H0
  isplitl [H1]; · iexact H1
  isplitl [H2]; · iexact H2
  isplitl [H3]; · iexact H3
  isplitl [HLLL]; · iexact HLLL
  isplitl [HLLR]; · iexact HLLR
  isplitl [HLRL]; · iexact HLRL
  isplitl [HLRR]; · iexact HLRR
  isplitl [HRLL]; · iexact HRLL
  isplitl [HRLR]; · iexact HRLR
  isplitl [HRRL]; · iexact HRRL
  isplitl [HRRR]; · iexact HRRR
  iexact H5

/-! ## The run and the frame -/

set_option backward.isDefEq.respectTransparency.types false in
set_option maxHeartbeats 1000000 in
/-- At the compiled mesh, for any values, from any memory with zero counters: every weakly fair execution of @main on the
    TensorCores terminates, and every final state has every array of the pipeline at what the library computes from the
    proof data and every other unscoped buffer as the region found it. The launch for windows that may share an array:
    the entry split is `hsplit`; the invariant is the scoped rest and the generator register, handed in and given back
    untouched; the buffers that bypass the region are read back at the end. -/
theorem run_main : θ_run defs (onTc (τ := τ) (main (F := F))) (s₀ m ρ) (Pipeline.FramePost cfgs (dats m) 0 (V m)) := by
  classical
  exact Pipeline.θ_run_region_pf (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((pcfgs (F := F) 0).pre) spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig ((pcfgs (F := F) 0).pre) spec0, s.mem ((c.tc : Thread nD τ).loc b) = V m c b)
    (hY := fun c s' => by
      iintro ⟨-, HU, HSI⟩
      unfold Pipeline.unscopedRestP
      imodintro
      iapply (pointsTo_read_all (Pipeline.restRefsP sig ((pcfgs (F := F) 0).pre) spec0) (fun b => (c.tc : Thread nD τ).loc b) (V m c) s')
      isplitl [HU] <;> iassumption)
    (hQ := fun s h c => ⟨fun w => (h c).1 w,
      Pipeline.rest_of_restP ((pcfgs (F := F) 0).pre) spec0 (fun k => k.elim0) c (V m c) s (fun k => k.elim0) (h c).2.1 (h c).2.2⟩)

/-- THE FRAME: every weakly fair run of @main terminates without fault and leaves the five argument arrays as launched:
    the two that windows stage by the library's account of an input array, the three the host transposes read by the
    run's account of the buffers that bypass the region; none is written before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Hand

end
-- ==== Proof.KData.lean ====
/- The proof data of the one pipeline of `Kernel`'s @main: the arrays as the region finds them (after the three
   host transposes), each window's block at a grid point, what the body leaves in the output window's buffer as a
   function of the twelve input blocks, and the shares: the eight windows that read one array hold an eighth of it
   each (the leaves of a depth-three split of the full share), every other window its array whole. -/
import proofs.«162409_g83107617177736_cont_sun_m_307_6_alg».proof.Proof.Gen.Kernel.Launch
import proofs.«162409_g83107617177736_cont_sun_m_307_6_alg».proof.Proof.Gen.Kernel.Skeleton
import proofs.«162409_g83107617177736_cont_sun_m_307_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the three host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each a whole staging buffer -/

abbrev rA : Rect S1x64x128 := Rect.unit (s := S1x64x128) ![0, 0, 0] S1x64x128.size inb_S1x64x128_S1x64x128_0_0_0
abbrev rB : Rect S64x128 := Rect.unit (s := S64x128) ![0, 0] S64x128.size inb_S64x128_S64x128_0_0
abbrev rC : Rect S65x16384 := Rect.unit (s := S65x16384) ![0, 0] S65x16384.size inb_S65x16384_S65x16384_0_0
abbrev rD : Rect S1x64x2048 := Rect.unit (s := S1x64x2048) ![0, 0, 0] S1x64x2048.size inb_S1x64x2048_S1x64x2048_0_0_0

/-! ## What the body leaves in the output window's buffer -/

/-- The output window's staging buffer after the body, from the twelve input windows' blocks: its one store,
    of the whole buffer, of the payload chain over the loaded blocks. -/
def outBlock (x0 : Vec F S1x64x128 .f32) (x1 x2 : Vec F S64x128 .f32) (x3 : Vec F S65x16384 .f32) (x4 x5 x6 x7 x8 x9 x10 x11 : Vec F S1x64x2048 .f32) : Vec F S1x64x128 .f32 :=
  View.canon [⟨rA, k0_pay1 (k0_pay3 (View.ld x0 rA) (View.ld x1 rB) (View.ld x3 rC))
    (k0_pay5 (k0_pay2 (View.ld x0 rA) (View.ld x1 rB) (View.ld x3 rC)) (k0_pay4 (View.ld x0 rA) (View.ld x1 rB) (View.ld x3 rC))
      (View.ld x4 rD) (View.ld x5 rD) (View.ld x6 rD) (View.ld x7 rD) (View.ld x8 rD) (View.ld x9 rD) (View.ld x10 rD))
    (k0_pay6 (k0_pay2 (View.ld x0 rA) (View.ld x1 rB) (View.ld x3 rC))) (View.ld x11 rD) (View.ld x2 rB)⟩]

/-! ## The shares -/

/-- The share each window holds of its array: the eight windows on the one shared array an eighth each, the
    leaves of the full share split three times; every other window the whole. -/
def shareOf : Fin 13 → PosShare TreeShare := fun w => match w with
  | ⟨0, _⟩ => fullShare
  | ⟨1, _⟩ => fullShare
  | ⟨2, _⟩ => fullShare
  | ⟨3, _⟩ => fullShare
  | ⟨4, _⟩ => fullShare.left.left.left
  | ⟨5, _⟩ => fullShare.left.left.right
  | ⟨6, _⟩ => fullShare.left.right.left
  | ⟨7, _⟩ => fullShare.left.right.right
  | ⟨8, _⟩ => fullShare.right.left.left
  | ⟨9, _⟩ => fullShare.right.left.right
  | ⟨10, _⟩ => fullShare.right.right.left
  | ⟨11, _⟩ => fullShare.right.right.right
  | ⟨12, _⟩ => fullShare
  | ⟨_ + 13, h⟩ => absurd h (Nat.not_lt.2 (Nat.le_add_left _ _))

/-! ## The pipeline's proof data -/

/-- The proof data of the one pipeline on core `c`: the arrays as the region finds them (`V`); after the body at
    point `t` each input's buffer at its block and the output's at `outBlock` of the input blocks; the invariant the
    scoped rest and the generator register, untouched; nothing owed; the shares `shareOf`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q := shareOf
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem q_eq (c : Dev nD) (w : Fin cfg0.W) : (dats m 0 c).q w = shareOf w := by dsimp only [dats]

end Cert.Kernel.Hand

end
-- ==== Proof.KFrame.lean ====
/- The frame of `Kernel`'s @main: the body's triple on whole staging buffers, each input window found at its block at
   every point, the body obligation, the launch for windows that share an array (the one shared array's full share
   dealt in eighths to the eight windows that read it), and the frame claim: every weakly fair run terminates
   without fault and leaves the five argument arrays as launched. -/
import proofs.«162409_g83107617177736_cont_sun_m_307_6_alg».proof.Proof.KData

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output buffer's one store covers it -/

theorem cover12 (p0 : Vec F S1x64x128 .f32) (y : S1x64x128.Idx) :
    ∃ pc ∈ ([⟨rA, p0⟩] : List (View.Piece (Elt F) S1x64x128 .f32)), y ∈ pc.1.set :=
  View.cover_of_tiled [⟨rA, p0⟩] S1x64x128.size (by rfl) y

/-! ## The body's triple -/

set_option maxHeartbeats 4000000 in
/-- The kernel body on whole staging memrefs, the twelve inputs' at read contents `xW` and the output's at anything,
    runs to the continuation holding the inputs' as they were and the output's at `outBlock` of the inputs'. -/
theorem sound_kernel (c : Dev nD) (E : Set ℕ) (i : grid0.Coords) (arg1 : Memref sig .tc .vmem S1x64x128 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S65x16384 .f32) (harg4 : arg4.IsWhole) (arg5 : Memref sig .tc .vmem S1x64x2048 .f32) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole) (arg13 : Memref sig .tc .vmem S1x64x128 .f32) (harg13 : arg13.IsWhole)
    (x0 : Vec F S1x64x128 .f32) (x1 x2 : Vec F S64x128 .f32) (x3 : Vec F S65x16384 .f32) (x4 x5 x6 x7 x8 x9 x10 x11 : Vec F S1x64x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outBlock x0 x1 x2 x3 x4 x5 x6 x7 x8 x9 x10 x11)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover12 _)

/-! ## Each input window holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the shared array's full share dealt to the windows that read it -/

/-- The distinct buffers behind the thirteen windows' arrays, one by one: six. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1) ∗ (((c : Thread nD τ).loc main_v2) ↦{fullShare} V' main_v2) ∗ (((c : Thread nD τ).loc main_v0) ↦{fullShare} V' main_v0) ∗ (((c : Thread nD τ).loc main_v1) ↦{fullShare} V' main_v1) ∗ (((c : Thread nD τ).loc main_v3) ↦{fullShare} V' main_v3)) := by
  unfold Pipeline.arrBufs
  exact bigSep_eq_bigSepL_of_eq [main_arg0, main_arg1, main_v2, main_v0, main_v1, main_v3] (by decide) (by decide) _

/-- An input window holds its array at the share the proof data names; -/
theorem share_in (c : Dev nD) (w : Fin cfg0.W) (h : (cfg0.win w).isOut = false) : (dats m 0 c).share w = shareOf w := by
  unfold Dat.share; rw [if_neg (by rw [h]; exact Bool.false_ne_true)]; exact q_eq m c w

/-- the output window holds its array whole. -/
theorem share_out (c : Dev nD) : (dats m 0 c).share 12 = fullShare := by
  unfold Dat.share; exact if_pos rfl

theorem share0_0 (c : Dev nD) : (dats m 0 c).share 0 = fullShare := (share_in m c 0 rfl).trans rfl
theorem share0_1 (c : Dev nD) : (dats m 0 c).share 1 = fullShare := (share_in m c 1 rfl).trans rfl
theorem share0_2 (c : Dev nD) : (dats m 0 c).share 2 = fullShare := (share_in m c 2 rfl).trans rfl
theorem share0_3 (c : Dev nD) : (dats m 0 c).share 3 = fullShare := (share_in m c 3 rfl).trans rfl
theorem share0_4 (c : Dev nD) : (dats m 0 c).share 4 = fullShare.left.left.left := (share_in m c 4 rfl).trans rfl
theorem share0_5 (c : Dev nD) : (dats m 0 c).share 5 = fullShare.left.left.right := (share_in m c 5 rfl).trans rfl
theorem share0_6 (c : Dev nD) : (dats m 0 c).share 6 = fullShare.left.right.left := (share_in m c 6 rfl).trans rfl
theorem share0_7 (c : Dev nD) : (dats m 0 c).share 7 = fullShare.left.right.right := (share_in m c 7 rfl).trans rfl
theorem share0_8 (c : Dev nD) : (dats m 0 c).share 8 = fullShare.right.left.left := (share_in m c 8 rfl).trans rfl
theorem share0_9 (c : Dev nD) : (dats m 0 c).share 9 = fullShare.right.left.right := (share_in m c 9 rfl).trans rfl
theorem share0_10 (c : Dev nD) : (dats m 0 c).share 10 = fullShare.right.right.left := (share_in m c 10 rfl).trans rfl
theorem share0_11 (c : Dev nD) : (dats m 0 c).share 11 = fullShare.right.right.right := (share_in m c 11 rfl).trans rfl

/-- Window `w`'s array at entry, as the pipeline holds it: the whole buffer at the window's share, at the contents
    the region finds. -/
theorem conj_eq (c : Dev nD) (w : Fin cfg0.W) :
    ((((cfg0.win w).arr.view.loc (c.tc : Thread nD τ)) ↦[(cfg0.win w).arr.view.set]{(dats m 0 c).share w} (dats m 0 c).arrAt w 0 : sProp 𝕄))
      = (((c.tc : Thread nD τ).loc (Pipeline.arrRef spec0 w)) ↦{(dats m 0 c).share w} V m c (Pipeline.arrRef spec0 w)) := by
  rw [(arr_whole0 w).set_eq_univ, show (dats m 0 c).arrAt w 0 = (dats m 0 c).A w from rfl, A_eq]

theorem arrRef0_0 : Pipeline.arrRef spec0 0 = main_arg0 := rfl
theorem arrRef0_1 : Pipeline.arrRef spec0 1 = main_arg1 := rfl
theorem arrRef0_2 : Pipeline.arrRef spec0 2 = main_v2 := rfl
theorem arrRef0_3 : Pipeline.arrRef spec0 3 = main_v0 := rfl
theorem arrRef0_4 : Pipeline.arrRef spec0 4 = main_v1 := rfl
theorem arrRef0_5 : Pipeline.arrRef spec0 5 = main_v1 := rfl
theorem arrRef0_6 : Pipeline.arrRef spec0 6 = main_v1 := rfl
theorem arrRef0_7 : Pipeline.arrRef spec0 7 = main_v1 := rfl
theorem arrRef0_8 : Pipeline.arrRef spec0 8 = main_v1 := rfl
theorem arrRef0_9 : Pipeline.arrRef spec0 9 = main_v1 := rfl
theorem arrRef0_10 : Pipeline.arrRef spec0 10 = main_v1 := rfl
theorem arrRef0_11 : Pipeline.arrRef spec0 11 = main_v1 := rfl
theorem arrRef0_12 : Pipeline.arrRef spec0 12 = main_v3 := rfl

set_option maxHeartbeats 1000000 in
/-- The pipeline's thirteen arrays at entry, one by one: each window's array whole, at the window's share, at the
    contents the region finds. -/
theorem arrays_eq_chain (c : Dev nD) :
    (dats m 0 c).arrays ((dats m 0 c).arrAt · 0)
      = iprop((((c.tc : Thread nD τ).loc main_arg0) ↦{fullShare} V m c main_arg0) ∗ (((c.tc : Thread nD τ).loc main_arg1) ↦{fullShare} V m c main_arg1) ∗ (((c.tc : Thread nD τ).loc main_v2) ↦{fullShare} V m c main_v2) ∗ (((c.tc : Thread nD τ).loc main_v0) ↦{fullShare} V m c main_v0) ∗ (((c.tc : Thread nD τ).loc main_v1) ↦{fullShare.left.left.left} V m c main_v1) ∗ (((c.tc : Thread nD τ).loc main_v1) ↦{fullShare.left.left.right} V m c main_v1) ∗ (((c.tc : Thread nD τ).loc main_v1) ↦{fullShare.left.right.left} V m c main_v1) ∗ (((c.tc : Thread nD τ).loc main_v1) ↦{fullShare.left.right.right} V m c main_v1) ∗ (((c.tc : Thread nD τ).loc main_v1) ↦{fullShare.right.left.left} V m c main_v1) ∗ (((c.tc : Thread nD τ).loc main_v1) ↦{fullShare.right.left.right} V m c main_v1) ∗ (((c.tc : Thread nD τ).loc main_v1) ↦{fullShare.right.right.left} V m c main_v1) ∗ (((c.tc : Thread nD τ).loc main_v1) ↦{fullShare.right.right.right} V m c main_v1) ∗ (((c.tc : Thread nD τ).loc main_v3) ↦{fullShare} V m c main_v3)) := by
  unfold Dat.arrays
  rw [bigSep_W0]
  rw [conj_eq m c 0, conj_eq m c 1, conj_eq m c 2, conj_eq m c 3, conj_eq m c 4, conj_eq m c 5, conj_eq m c 6, conj_eq m c 7, conj_eq m c 8, conj_eq m c 9, conj_eq m c 10, conj_eq m c 11, conj_eq m c 12]
  rw [share0_0 m c, share0_1 m c, share0_2 m c, share0_3 m c, share0_4 m c, share0_5 m c, share0_6 m c, share0_7 m c, share0_8 m c, share0_9 m c, share0_10 m c, share0_11 m c, share_out m c]

set_option maxHeartbeats 1000000 in
/-- The six buffers, each whole at the full share, make the pipeline's thirteen arrays at entry: the array eight
    windows read is split three times along its share, an eighth to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq_chain]
  iintro ⟨H0, H1, H2, H3, H4, H5⟩
  ihave H4 := (pointsTo_share (PosShare.mem_left_op_right fullShare)).1 $$ H4
  icases H4 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  ihave HLL := (pointsTo_share (PosShare.mem_left_op_right fullShare.left.left)).1 $$ HLL
  icases HLL with ⟨HLLL, HLLR⟩
  ihave HLR := (pointsTo_share (PosShare.mem_left_op_right fullShare.left.right)).1 $$ HLR
  icases HLR with ⟨HLRL, HLRR⟩
  ihave HRL := (pointsTo_share (PosShare.mem_left_op_right fullShare.right.left)).1 $$ HRL
  icases HRL with ⟨HRLL, HRLR⟩
  ihave HRR := (pointsTo_share (PosShare.mem_left_op_right fullShare.right.right)).1 $$ HRR
  icases HRR with ⟨HRRL, HRRR⟩
  isplitl [H0]; · iexact H0
  isplitl [H1]; · iexact H1
  isplitl [H2]; · iexact H2
  isplitl [H3]; · iexact H3
  isplitl [HLLL]; · iexact HLLL
  isplitl [HLLR]; · iexact HLLR
  isplitl [HLRL]; · iexact HLRL
  isplitl [HLRR]; · iexact HLRR
  isplitl [HRLL]; · iexact HRLL
  isplitl [HRLR]; · iexact HRLR
  isplitl [HRRL]; · iexact HRRL
  isplitl [HRRR]; · iexact HRRR
  iexact H5

/-! ## The run and the frame -/

set_option backward.isDefEq.respectTransparency.types false in
set_option maxHeartbeats 1000000 in
/-- At the compiled mesh, for any values, from any memory with zero counters: every weakly fair execution of @main on the
    TensorCores terminates, and every final state has every array of the pipeline at what the library computes from the
    proof data and every other unscoped buffer as the region found it. The launch for windows that may share an array:
    the entry split is `hsplit`; the invariant is the scoped rest and the generator register, handed in and given back
    untouched; the buffers that bypass the region are read back at the end. -/
theorem run_main : θ_run defs (onTc (τ := τ) (main (F := F))) (s₀ m ρ) (Pipeline.FramePost cfgs (dats m) 0 (V m)) := by
  classical
  exact Pipeline.θ_run_region_pf (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((pcfgs (F := F) 0).pre) spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig ((pcfgs (F := F) 0).pre) spec0, s.mem ((c.tc : Thread nD τ).loc b) = V m c b)
    (hY := fun c s' => by
      iintro ⟨-, HU, HSI⟩
      unfold Pipeline.unscopedRestP
      imodintro
      iapply (pointsTo_read_all (Pipeline.restRefsP sig ((pcfgs (F := F) 0).pre) spec0) (fun b => (c.tc : Thread nD τ).loc b) (V m c) s')
      isplitl [HU] <;> iassumption)
    (hQ := fun s h c => ⟨fun w => (h c).1 w,
      Pipeline.rest_of_restP ((pcfgs (F := F) 0).pre) spec0 (fun k => k.elim0) c (V m c) s (fun k => k.elim0) (h c).2.1 (h c).2.2⟩)

/-- THE FRAME: every weakly fair run of @main terminates without fault and leaves the five argument arrays as launched:
    the two that windows stage by the library's account of an input array, the three the host transposes read by the
    run's account of the buffers that bypass the region; none is written before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Hand

end
-- ==== Proof.Spec.lean ====
/-
  The function both programs compute, index by index, on the extended reals.

  Inputs: queries Q[b,q,d] (4×64×128), the query projection Wq[e,d] (64×128), the read projection Wr[v,e] (128×64),
  the memory keys K[m,j] (16384×65) and the memory values Vm[b,m,e] (4×16384×64).

  For a batch b and a query row q:
    proj e   = ∑ d, Q[b,q,d] · Wq[e,d]
    ex e     = exp (proj e · 4)
    den      = 1 + ∑ e, ex e
    qs j     = √(num j / den),  num j = ex j for j < 64 and 1 for j = 64    (a point of the unit sphere in 65 dimensions)
    score m  = ∑ j, qs j · K[m,j]
    s8 m     = (score m)^8, by three squarings
    mx       = the largest s8 m
    thr      = 0.9·mx if mx < 1/2, else 1/2
    msk m    = 0 if s8 m < thr, else s8 m
    wsum     = ∑ m, msk m
    rd e     = (∑ m, msk m · Vm[b,m,e]) / (wsum + ε)
    out v    = ∑ e, rd e · Wr[v,e]
  The float literals stay bit patterns read at the ideal instance: the same words occur in both programs.
-/
import Idealize.ShloMosaic.PureOps.Ideal
import Idealize.ShloMosaic.Lib.ValueIdx

noncomputable section

namespace Cert.SphereRead

open Idealize.ShloMosaic Idealize.ShloMosaic.ValueIdx
open scoped BigOperators

abbrev Arr2 (n0 n1 : Nat) : Type := (⟨2, ![n0, n1]⟩ : Shape).Idx → EReal
abbrev Arr3 (n0 n1 n2 : Nat) : Type := (⟨3, ![n0, n1, n2]⟩ : Shape).Idx → EReal

/-- The literals, as the words the programs carry. -/
def cFour : EReal := Ideal.ofBits .f32 0x40800000#32
def cOne : EReal := Ideal.ofBits .f32 0x3F800000#32
def cHalf : EReal := Ideal.ofBits .f32 0x3F000000#32
def cNineTenths : EReal := Ideal.ofBits .f32 0x3F666666#32
def cEps : EReal := Ideal.ofBits .f32 0x3089705F#32
def cNegInf : EReal := Ideal.ofBits .f32 0xFF800000#32

/-- The eighth power by three squarings. -/
def pow8 (x : EReal) : EReal := ((x * x) * (x * x)) * ((x * x) * (x * x))

section
variable (Q : Arr3 4 64 128) (Wq : Arr2 64 128) (Wr : Arr2 128 64) (K : Arr2 16384 65) (Vm : Arr3 4 16384 64)

/-- The projected query. -/
def proj (b : Fin 4) (q : Fin 64) (e : Fin 64) : EReal := ∑ d : Fin 128, Q (ix3 b q d) * Wq (ix2 e d)

def ex (b : Fin 4) (q : Fin 64) (e : Fin 64) : EReal := Ideal.exp (proj Q Wq b q e * cFour)

def den (b : Fin 4) (q : Fin 64) : EReal := cOne + ∑ e : Fin 64, ex Q Wq b q e

/-- The numerators: the exponentials, then a one in the last place. -/
def num (b : Fin 4) (q : Fin 64) (j : Fin 65) : EReal :=
  if h : j.val < 64 then ex Q Wq b q ⟨j.val, h⟩ else cOne

/-- The query on the sphere. -/
def qs (b : Fin 4) (q : Fin 64) (j : Fin 65) : EReal := Ideal.sqrt (Ideal.div (num Q Wq b q j) (den Q Wq b q))

def score (b : Fin 4) (q : Fin 64) (m : Fin 16384) : EReal := ∑ j : Fin 65, qs Q Wq b q j * K (ix2 m j)

def s8 (b : Fin 4) (q : Fin 64) (m : Fin 16384) : EReal := pow8 (score Q Wq K b q m)

/-- The largest eighth power of a row. -/
def mx (b : Fin 4) (q : Fin 64) : EReal :=
  (Finset.univ : Finset (Fin 16384)).fold max cNegInf (fun m => s8 Q Wq K b q m)

/-- The adaptive threshold. -/
def thr (b : Fin 4) (q : Fin 64) : EReal :=
  Scalar.select (Ideal.cmp .olt (mx Q Wq K b q) cHalf) (cNineTenths * mx Q Wq K b q) cHalf

/-- The masked weights. -/
def msk (b : Fin 4) (q : Fin 64) (m : Fin 16384) : EReal :=
  Scalar.select (Ideal.cmp .olt (s8 Q Wq K b q m) (thr Q Wq K b q)) 0 (s8 Q Wq K b q m)

def wsum (b : Fin 4) (q : Fin 64) : EReal := ∑ m : Fin 16384, msk Q Wq K b q m

/-- The normalised read. -/
def rd (b : Fin 4) (q : Fin 64) (e : Fin 64) : EReal :=
  Ideal.div (∑ m : Fin 16384, msk Q Wq K b q m * Vm (ix3 b m e)) (wsum Q Wq K b q + cEps)

def out (b : Fin 4) (q : Fin 64) (v : Fin 128) : EReal := ∑ e : Fin 64, rd Q Wq K Vm b q e * Wr (ix2 v e)

/-- The whole result array. -/
def G : Arr3 4 64 128 := fun i => out Q Wq Wr K Vm (i 0) (i 1) (i 2)

theorem G_apply (b : Fin 4) (q : Fin 64) (v : Fin 128) : G Q Wq Wr K Vm (ix3 b q v) = out Q Wq Wr K Vm b q v := rfl

end

end Cert.SphereRead

end
-- ==== Proof.SpecRef.lean ====
/-
  The same function in the arrangement of the reference program: the projected query divided by 1/4 where the
  kernel multiplies by 4, the eighth power taken by the power function, and the weights normalised BEFORE the
  weighted read of the values where the kernel normalises after it. Equal to the arrangement of
  `Cert.SphereRead.G` on finite inputs (proved apart).
-/
import proofs.«162409_g83107617177736_cont_sun_m_307_6_alg».proof.Proof.Spec

noncomputable section

namespace Cert.SphereRead

open Idealize.ShloMosaic Idealize.ShloMosaic.ValueIdx
open scoped BigOperators

def cQuarter : EReal := Ideal.ofBits .f32 0x3E800000#32
def cEight : EReal := Ideal.ofBits .f32 0x41000000#32

/-- Position `k` of the `i`-th of eight consecutive stretches of 2048 memory slots. -/
def mAt (i : Fin 8) (k : Fin 2048) : Fin 16384 := ⟨2048 * i.val + k.val, by have := i.isLt; have := k.isLt; omega⟩

section
variable (Q : Arr3 4 64 128) (Wq : Arr2 64 128) (Wr : Arr2 128 64) (K : Arr2 16384 65) (Vm : Arr3 4 16384 64)

def exR (b : Fin 4) (q : Fin 64) (e : Fin 64) : EReal := Ideal.exp (Ideal.div (proj Q Wq b q e) cQuarter)

def denR (b : Fin 4) (q : Fin 64) : EReal := cOne + ∑ e : Fin 64, exR Q Wq b q e

/-- The two quotients joined: the exponentials over the denominator, then one over the denominator. -/
def quoR (b : Fin 4) (q : Fin 64) (j : Fin 65) : EReal :=
  if h : j.val < 64 then Ideal.div (exR Q Wq b q ⟨j.val, h⟩) (denR Q Wq b q) else Ideal.div cOne (denR Q Wq b q)

def qsR (b : Fin 4) (q : Fin 64) (j : Fin 65) : EReal := Ideal.sqrt (quoR Q Wq b q j)

def scoreR (b : Fin 4) (q : Fin 64) (m : Fin 16384) : EReal := ∑ j : Fin 65, qsR Q Wq b q j * K (ix2 m j)

def s8R (b : Fin 4) (q : Fin 64) (m : Fin 16384) : EReal := Ideal.pow (scoreR Q Wq K b q m) cEight

def mxR (b : Fin 4) (q : Fin 64) : EReal :=
  (Finset.univ : Finset (Fin 16384)).fold max cNegInf (fun m => s8R Q Wq K b q m)

def thrR (b : Fin 4) (q : Fin 64) : EReal :=
  Scalar.select (Ideal.cmp .olt (mxR Q Wq K b q) cHalf) (cNineTenths * mxR Q Wq K b q) cHalf

def mskR (b : Fin 4) (q : Fin 64) (m : Fin 16384) : EReal :=
  Scalar.select (Ideal.cmp .olt (s8R Q Wq K b q m) (thrR Q Wq K b q)) 0 (s8R Q Wq K b q m)

def wsumR (b : Fin 4) (q : Fin 64) : EReal := ∑ m : Fin 16384, mskR Q Wq K b q m

/-- The normalised weights. -/
def wgtR (b : Fin 4) (q : Fin 64) (m : Fin 16384) : EReal := Ideal.div (mskR Q Wq K b q m) (wsumR Q Wq K b q + cEps)

def rdR (b : Fin 4) (q : Fin 64) (e : Fin 64) : EReal := ∑ m : Fin 16384, wgtR Q Wq K b q m * Vm (ix3 b m e)

def outR (b : Fin 4) (q : Fin 64) (v : Fin 128) : EReal := ∑ e : Fin 64, rdR Q Wq K Vm b q e * Wr (ix2 v e)

def GR : Arr3 4 64 128 := fun i => outR Q Wq Wr K Vm (i 0) (i 1) (i 2)

theorem GR_apply (b : Fin 4) (q : Fin 64) (v : Fin 128) : GR Q Wq Wr K Vm (ix3 b q v) = outR Q Wq Wr K Vm b q v := rfl

end

end Cert.SphereRead

end
-- ==== Proof.KValueTail.lean ====
/-
  The second half of the kernel body's arithmetic, at the extended reals and at explicit coordinates: the 16384 memory
  slots as eight consecutive stretches of 2048; a stretch of the weights cut out of the row; the seven partial weighted
  reads added left to right; the eighth stretch; and the stored block, where the eighth partial read is added, the sum
  divided by the sum of the weights plus the small word, and the read projection applied.
-/
import proofs.«162409_g83107617177736_cont_sun_m_307_6_alg».proof.Proof.Gen.KernelIdeal.Skeleton
import proofs.«162409_g83107617177736_cont_sun_m_307_6_alg».proof.Proof.SpecRef
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockTail

open Cert.KernelIdeal Cert.KernelIdeal.Gen Cert.SphereRead Idealize.ShloMosaic Idealize.ShloMosaic.ValueIdx
open scoped BigOperators

/-! ## The eight stretches of memory slots -/

/-- A sum over the 16384 slots is the sum of its eight consecutive stretches of 2048, added left to right. -/
theorem sum_blocks {M : Type*} [AddCommMonoid M] (f : Fin 16384 → M) :
    ∑ m : Fin 16384, f m
      = (((((((∑ k : Fin 2048, f (mAt 0 k)) + ∑ k : Fin 2048, f (mAt 1 k)) + ∑ k : Fin 2048, f (mAt 2 k))
        + ∑ k : Fin 2048, f (mAt 3 k)) + ∑ k : Fin 2048, f (mAt 4 k)) + ∑ k : Fin 2048, f (mAt 5 k))
        + ∑ k : Fin 2048, f (mAt 6 k)) + ∑ k : Fin 2048, f (mAt 7 k) := by
  have hm : ∀ (i : Fin 8) (k : Fin 2048), (finProdFinEquiv (i, k) : Fin 16384) = mAt i k := fun i k =>
    Fin.ext (by show k.val + 2048 * i.val = 2048 * i.val + k.val; omega)
  rw [← Equiv.sum_comp (finProdFinEquiv : Fin 8 × Fin 2048 ≃ Fin 16384) f, Fintype.sum_prod_type, Fin.sum_univ_eight]
  simp only [hm]

/-! ## A stretch cut out of a row of 16384 -/

/-- The slice of 2048 lanes from lane `2048 i` on reads the row at the `i`-th stretch. -/
theorem slice_at {α : Type} (o : Nat) (w : S64x16384.Idx → α) (h : S64x16384.Slices ![0, o] S64x2048) (i : Fin 8)
    (ho : o = 2048 * i.val) (q : Fin 64) (k : Fin 2048) :
    extractStridedSlice S64x2048 ![0, o] w h (ix2 q k) = w (ix2 q (mAt i k)) :=
  extractStridedSlice_apply _ w h _ _ (fun a => by
    match a with
    | ⟨0, _⟩ => show q.val = 0 + q.val; omega
    | ⟨1, _⟩ => show 2048 * i.val + k.val = o + k.val; omega)

theorem slice0_at {α : Type} (w : S64x16384.Idx → α) (q : Fin 64) (k : Fin 2048) :
    extractStridedSlice S64x2048 ![0, 0] w slices_S64x16384_o0_0_S64x2048 (ix2 q k) = w (ix2 q (mAt 0 k)) :=
  slice_at 0 w _ 0 rfl q k
theorem slice1_at {α : Type} (w : S64x16384.Idx → α) (q : Fin 64) (k : Fin 2048) :
    extractStridedSlice S64x2048 ![0, 2048] w slices_S64x16384_o0_2048_S64x2048 (ix2 q k) = w (ix2 q (mAt 1 k)) :=
  slice_at 2048 w _ 1 rfl q k
theorem slice2_at {α : Type} (w : S64x16384.Idx → α) (q : Fin 64) (k : Fin 2048) :
    extractStridedSlice S64x2048 ![0, 4096] w slices_S64x16384_o0_4096_S64x2048 (ix2 q k) = w (ix2 q (mAt 2 k)) :=
  slice_at 4096 w _ 2 rfl q k
theorem slice3_at {α : Type} (w : S64x16384.Idx → α) (q : Fin 64) (k : Fin 2048) :
    extractStridedSlice S64x2048 ![0, 6144] w slices_S64x16384_o0_6144_S64x2048 (ix2 q k) = w (ix2 q (mAt 3 k)) :=
  slice_at 6144 w _ 3 rfl q k
theorem slice4_at {α : Type} (w : S64x16384.Idx → α) (q : Fin 64) (k : Fin 2048) :
    extractStridedSlice S64x2048 ![0, 8192] w slices_S64x16384_o0_8192_S64x2048 (ix2 q k) = w (ix2 q (mAt 4 k)) :=
  slice_at 8192 w _ 4 rfl q k
theorem slice5_at {α : Type} (w : S64x16384.Idx → α) (q : Fin 64) (k : Fin 2048) :
    extractStridedSlice S64x2048 ![0, 10240] w slices_S64x16384_o0_10240_S64x2048 (ix2 q k) = w (ix2 q (mAt 5 k)) :=
  slice_at 10240 w _ 5 rfl q k
theorem slice6_at {α : Type} (w : S64x16384.Idx → α) (q : Fin 64) (k : Fin 2048) :
    extractStridedSlice S64x2048 ![0, 12288] w slices_S64x16384_o0_12288_S64x2048 (ix2 q k) = w (ix2 q (mAt 6 k)) :=
  slice_at 12288 w _ 6 rfl q k
theorem slice7_at {α : Type} (w : S64x16384.Idx → α) (q : Fin 64) (k : Fin 2048) :
    extractStridedSlice S64x2048 ![0, 14336] w slices_S64x16384_o0_14336_S64x2048 (ix2 q k) = w (ix2 q (mAt 7 k)) :=
  slice_at 14336 w _ 7 rfl q k

/-! ## The two contractions of the tail read at an index

Each has one contracted axis; its sum over the contraction index is re-indexed by that axis's coordinate. -/

theorem dR_lhs0 (i : S64x64.Idx) (c : dot_S64x2048_S64x2048_S64x64_1_1_0_0_n_n.contr.Idx) :
    (dot_S64x2048_S64x2048_S64x64_1_1_0_0_n_n.lhsIdx i c 0).val = (i 0).val := by
  unfold DotDims.lhsIdx
  rw [dif_neg (show ¬(0 : Fin S64x2048.rank) ∈ dot_S64x2048_S64x2048_S64x64_1_1_0_0_n_n.lhsBatch by decide), dif_pos (show (0 : Fin S64x2048.rank) ∈ dot_S64x2048_S64x2048_S64x64_1_1_0_0_n_n.lhsNonContracting by decide)]
  rfl
theorem dR_lhs1 (i : S64x64.Idx) (c : dot_S64x2048_S64x2048_S64x64_1_1_0_0_n_n.contr.Idx) :
    (dot_S64x2048_S64x2048_S64x64_1_1_0_0_n_n.lhsIdx i c 1).val = (c ⟨0, by decide⟩).val :=
  dot_S64x2048_S64x2048_S64x64_1_1_0_0_n_n.lhsIdx_val_of_single rfl i c
theorem dR_rhs0 (i : S64x64.Idx) (c : dot_S64x2048_S64x2048_S64x64_1_1_0_0_n_n.contr.Idx) :
    (dot_S64x2048_S64x2048_S64x64_1_1_0_0_n_n.rhsIdx i c 0).val = (i 1).val := by
  unfold DotDims.rhsIdx
  rw [dif_neg (show ¬(0 : Fin S64x2048.rank) ∈ dot_S64x2048_S64x2048_S64x64_1_1_0_0_n_n.rhsBatch by decide), dif_pos (show (0 : Fin S64x2048.rank) ∈ dot_S64x2048_S64x2048_S64x64_1_1_0_0_n_n.rhsNonContracting by decide)]
  rfl
theorem dR_rhs1 (i : S64x64.Idx) (c : dot_S64x2048_S64x2048_S64x64_1_1_0_0_n_n.contr.Idx) :
    (dot_S64x2048_S64x2048_S64x64_1_1_0_0_n_n.rhsIdx i c 1).val = (c ⟨0, by decide⟩).val :=
  dot_S64x2048_S64x2048_S64x64_1_1_0_0_n_n.rhsIdx_val_of_single rfl i c

theorem mm_part (a : FVec Ideal S64x2048 .f32) (b : FVec Ideal S64x2048 .f32) (p : Fin 64) (r : Fin 64) :
    matmul dot_S64x2048_S64x2048_S64x64_1_1_0_0_n_n none a b (constant (F := Ideal) S64x64 .f32 0x00000000#32) (ix2 p r)
      = ∑ k : Fin 2048, a (ix2 p k) * b (ix2 r k) := by
  simp only [matmul]
  rw [Ideal.matmul_constant_zero_apply, ← Equiv.sum_comp (contrEquiv1 dot_S64x2048_S64x2048_S64x64_1_1_0_0_n_n 2048 rfl rfl).symm]
  refine Finset.sum_congr rfl fun k _ => ?_
  have hk := contrEquiv1_symm_val dot_S64x2048_S64x2048_S64x64_1_1_0_0_n_n 2048 rfl rfl k
  have el : dot_S64x2048_S64x2048_S64x64_1_1_0_0_n_n.lhsIdx (ix2 p r) ((contrEquiv1 dot_S64x2048_S64x2048_S64x64_1_1_0_0_n_n 2048 rfl rfl).symm k) = ix2 p k := funext fun x => Fin.ext (by
    match x with
    | ⟨0, _⟩ => exact dR_lhs0 _ _
    | ⟨1, _⟩ => exact (dR_lhs1 _ _).trans hk)
  have er : dot_S64x2048_S64x2048_S64x64_1_1_0_0_n_n.rhsIdx (ix2 p r) ((contrEquiv1 dot_S64x2048_S64x2048_S64x64_1_1_0_0_n_n 2048 rfl rfl).symm k) = ix2 r k := funext fun x => Fin.ext (by
    match x with
    | ⟨0, _⟩ => exact dR_rhs0 _ _
    | ⟨1, _⟩ => exact (dR_rhs1 _ _).trans hk)
  rw [el, er]

theorem dO_lhs0 (i : S64x128.Idx) (c : dot_S64x64_S64x128_S64x128_1_0_0_1_n_n.contr.Idx) :
    (dot_S64x64_S64x128_S64x128_1_0_0_1_n_n.lhsIdx i c 0).val = (i 0).val := by
  unfold DotDims.lhsIdx
  rw [dif_neg (show ¬(0 : Fin S64x64.rank) ∈ dot_S64x64_S64x128_S64x128_1_0_0_1_n_n.lhsBatch by decide), dif_pos (show (0 : Fin S64x64.rank) ∈ dot_S64x64_S64x128_S64x128_1_0_0_1_n_n.lhsNonContracting by decide)]
  rfl
theorem dO_lhs1 (i : S64x128.Idx) (c : dot_S64x64_S64x128_S64x128_1_0_0_1_n_n.contr.Idx) :
    (dot_S64x64_S64x128_S64x128_1_0_0_1_n_n.lhsIdx i c 1).val = (c ⟨0, by decide⟩).val :=
  dot_S64x64_S64x128_S64x128_1_0_0_1_n_n.lhsIdx_val_of_single rfl i c
theorem dO_rhs1 (i : S64x128.Idx) (c : dot_S64x64_S64x128_S64x128_1_0_0_1_n_n.contr.Idx) :
    (dot_S64x64_S64x128_S64x128_1_0_0_1_n_n.rhsIdx i c 1).val = (i 1).val := by
  unfold DotDims.rhsIdx
  rw [dif_neg (show ¬(1 : Fin S64x128.rank) ∈ dot_S64x64_S64x128_S64x128_1_0_0_1_n_n.rhsBatch by decide), dif_pos (show (1 : Fin S64x128.rank) ∈ dot_S64x64_S64x128_S64x128_1_0_0_1_n_n.rhsNonContracting by decide)]
  rfl
theorem dO_rhs0 (i : S64x128.Idx) (c : dot_S64x64_S64x128_S64x128_1_0_0_1_n_n.contr.Idx) :
    (dot_S64x64_S64x128_S64x128_1_0_0_1_n_n.rhsIdx i c 0).val = (c ⟨0, by decide⟩).val :=
  dot_S64x64_S64x128_S64x128_1_0_0_1_n_n.rhsIdx_val_of_single rfl i c

theorem mm_out (a : FVec Ideal S64x64 .f32) (b : FVec Ideal S64x128 .f32) (p : Fin 64) (r : Fin 128) :
    matmul dot_S64x64_S64x128_S64x128_1_0_0_1_n_n none a b (constant (F := Ideal) S64x128 .f32 0x00000000#32) (ix2 p r)
      = ∑ k : Fin 64, a (ix2 p k) * b (ix2 k r) := by
  simp only [matmul]
  rw [Ideal.matmul_constant_zero_apply, ← Equiv.sum_comp (contrEquiv1 dot_S64x64_S64x128_S64x128_1_0_0_1_n_n 64 rfl rfl).symm]
  refine Finset.sum_congr rfl fun k _ => ?_
  have hk := contrEquiv1_symm_val dot_S64x64_S64x128_S64x128_1_0_0_1_n_n 64 rfl rfl k
  have el : dot_S64x64_S64x128_S64x128_1_0_0_1_n_n.lhsIdx (ix2 p r) ((contrEquiv1 dot_S64x64_S64x128_S64x128_1_0_0_1_n_n 64 rfl rfl).symm k) = ix2 p k := funext fun x => Fin.ext (by
    match x with
    | ⟨0, _⟩ => exact dO_lhs0 _ _
    | ⟨1, _⟩ => exact (dO_lhs1 _ _).trans hk)
  have er : dot_S64x64_S64x128_S64x128_1_0_0_1_n_n.rhsIdx (ix2 p r) ((contrEquiv1 dot_S64x64_S64x128_S64x128_1_0_0_1_n_n 64 rfl rfl).symm k) = ix2 k r := funext fun x => Fin.ext (by
    match x with
    | ⟨0, _⟩ => exact (dO_rhs0 _ _).trans hk
    | ⟨1, _⟩ => exact dO_rhs1 _ _)
  rw [el, er]

/-- A column spread over 64 lanes reads the column's entry of the row. -/
theorem spread64_apply {α : Type} (x : S64x1.Idx → α) (q : Fin 64) (e : Fin 64) :
    broadcastTo S64x64 x broadcasts_S64x1_S64x64 (ix2 q e) = x (ix2 q (0 : Fin 1)) := by
  refine broadcastTo_apply x _ (ix2 q e) (ix2 q (0 : Fin 1)) fun ax => ?_
  match ax with
  | ⟨0, _⟩ => rfl
  | ⟨1, _⟩ => rfl

/-! ## The partial weighted reads -/

/-- One stretch's contraction of the weights with its block of memory values. -/
theorem part_at (a : FVec Ideal S64x2048 .f32) (w : FVec Ideal S64x16384 .f32) (i : Fin 8)
    (ha : ∀ (q : Fin 64) (k : Fin 2048), a (ix2 q k) = w (ix2 q (mAt i k))) (xv : Vec Ideal S1x64x2048 .f32) (q e : Fin 64) :
    matmul dot_S64x2048_S64x2048_S64x64_1_1_0_0_n_n none a
        (shapeCast S64x2048 xv shapeCasts_S1x64x2048_S64x2048 : FVec Ideal S64x2048 .f32)
        (constant (F := Ideal) S64x64 .f32 0x00000000#32) (ix2 q e)
      = ∑ k : Fin 2048, w (ix2 q (mAt i k)) * xv (ix3 (0 : Fin 1) e k) := by
  rw [mm_part]
  refine Finset.sum_congr rfl fun k _ => ?_
  rw [ha, shapeCast_1ab_ab_apply]

/-- The first seven stretches, added left to right. -/
theorem pay5_at (w : FVec Ideal S64x16384 .f32) (v36 : FVec Ideal S64x2048 .f32)
    (h36 : ∀ (q : Fin 64) (k : Fin 2048), v36 (ix2 q k) = w (ix2 q (mAt 0 k)))
    (x4 x5 x6 x7 x8 x9 x10 : Vec Ideal S1x64x2048 .f32) (q e : Fin 64) :
    k0_pay5 w v36 x4 x5 x6 x7 x8 x9 x10 (ix2 q e)
      = ((((((∑ k : Fin 2048, w (ix2 q (mAt 0 k)) * x4 (ix3 (0 : Fin 1) e k))
        + ∑ k : Fin 2048, w (ix2 q (mAt 1 k)) * x5 (ix3 (0 : Fin 1) e k))
        + ∑ k : Fin 2048, w (ix2 q (mAt 2 k)) * x6 (ix3 (0 : Fin 1) e k))
        + ∑ k : Fin 2048, w (ix2 q (mAt 3 k)) * x7 (ix3 (0 : Fin 1) e k))
        + ∑ k : Fin 2048, w (ix2 q (mAt 4 k)) * x8 (ix3 (0 : Fin 1) e k))
        + ∑ k : Fin 2048, w (ix2 q (mAt 5 k)) * x9 (ix3 (0 : Fin 1) e k))
        + ∑ k : Fin 2048, w (ix2 q (mAt 6 k)) * x10 (ix3 (0 : Fin 1) e k) := by
  rw [← part_at v36 w 0 h36 x4 q e,
    ← part_at _ w 1 (slice1_at w) x5 q e,
    ← part_at _ w 2 (slice2_at w) x6 q e,
    ← part_at _ w 3 (slice3_at w) x7 q e,
    ← part_at _ w 4 (slice4_at w) x8 q e,
    ← part_at _ w 5 (slice5_at w) x9 q e,
    ← part_at _ w 6 (slice6_at w) x10 q e]
  rfl

/-- The eighth stretch of the weights. -/
theorem pay6_at (w : FVec Ideal S64x16384 .f32) (q : Fin 64) (k : Fin 2048) :
    k0_pay6 w (ix2 q k) = w (ix2 q (mAt 7 k)) :=
  slice7_at w q k

/-! ## The stored block -/

/-- The stored block: the eighth partial read added, the division by the sum of the weights plus the small word, the
    read projection. -/
theorem pay1_at (v35 : FVec Ideal S64x1 .f32) (v69 : FVec Ideal S64x64 .f32) (v70 : FVec Ideal S64x2048 .f32)
    (v71 : Vec Ideal S1x64x2048 .f32) (v79 : Vec Ideal S64x128 .f32) (q : Fin 64) (v : Fin 128) :
    k0_pay1 v35 v69 v70 v71 v79 (ix3 (0 : Fin 1) q v)
      = ∑ e : Fin 64, Ideal.div (v69 (ix2 q e) + ∑ k : Fin 2048, v70 (ix2 q k) * v71 (ix3 (0 : Fin 1) e k))
          (v35 (ix2 q (0 : Fin 1)) + cEps) * v79 (ix2 e v) := by
  unfold k0_pay1
  rw [shapeCast_ab_1ab_apply, mm_out]
  refine Finset.sum_congr rfl fun e _ => ?_
  rw [shapeCast_self, divf_apply, addf_apply, spread64_apply, addf_apply, broadcast_apply, mm_part]
  simp only [shapeCast_1ab_ab_apply]
  rfl

end Cert.KernelIdeal.BlockTail

end
-- ==== Proof.KValue.lean ====
/-
  The kernel body's arithmetic read at an index, on the extended reals: the block it stores for a batch is, entry by
  entry, the specified read `Cert.SphereRead.out` of that batch, given that each loaded block holds its part of the
  five input arrays. Both sides are the same arrangement of the same operations, so the proof only unfolds each stage
  at an index — a contraction is the sum over its contracted coordinate, a lane reduction the sum or the maximum of a
  row, the layout operations re-index — and regroups one sum: the eight partial contractions over the stretches of
  2048 memory slots, added left to right, are the one contraction over the 16384 slots.
-/
import proofs.«162409_g83107617177736_cont_sun_m_307_6_alg».proof.Proof.Gen.KernelIdeal.Skeleton
import proofs.«162409_g83107617177736_cont_sun_m_307_6_alg».proof.Proof.SpecRef
import proofs.«162409_g83107617177736_cont_sun_m_307_6_alg».proof.Proof.KValueTail
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.SphereRead Idealize.ShloMosaic Idealize.ShloMosaic.ValueIdx
open scoped BigOperators

/-! ## The two contractions of the first half read at an index

Each contraction has one contracted axis; its sum over the contraction index is re-indexed by that axis's coordinate. -/

theorem dP_lhs0 (i : S64x64.Idx) (c : dot_S64x128_S64x128_S64x64_1_1_0_0_n_n.contr.Idx) :
    (dot_S64x128_S64x128_S64x64_1_1_0_0_n_n.lhsIdx i c 0).val = (i 0).val := by
  unfold DotDims.lhsIdx
  rw [dif_neg (show ¬(0 : Fin S64x128.rank) ∈ dot_S64x128_S64x128_S64x64_1_1_0_0_n_n.lhsBatch by decide), dif_pos (show (0 : Fin S64x128.rank) ∈ dot_S64x128_S64x128_S64x64_1_1_0_0_n_n.lhsNonContracting by decide)]
  rfl
theorem dP_lhs1 (i : S64x64.Idx) (c : dot_S64x128_S64x128_S64x64_1_1_0_0_n_n.contr.Idx) :
    (dot_S64x128_S64x128_S64x64_1_1_0_0_n_n.lhsIdx i c 1).val = (c ⟨0, by decide⟩).val :=
  dot_S64x128_S64x128_S64x64_1_1_0_0_n_n.lhsIdx_val_of_single rfl i c
theorem dP_rhs0 (i : S64x64.Idx) (c : dot_S64x128_S64x128_S64x64_1_1_0_0_n_n.contr.Idx) :
    (dot_S64x128_S64x128_S64x64_1_1_0_0_n_n.rhsIdx i c 0).val = (i 1).val := by
  unfold DotDims.rhsIdx
  rw [dif_neg (show ¬(0 : Fin S64x128.rank) ∈ dot_S64x128_S64x128_S64x64_1_1_0_0_n_n.rhsBatch by decide), dif_pos (show (0 : Fin S64x128.rank) ∈ dot_S64x128_S64x128_S64x64_1_1_0_0_n_n.rhsNonContracting by decide)]
  rfl
theorem dP_rhs1 (i : S64x64.Idx) (c : dot_S64x128_S64x128_S64x64_1_1_0_0_n_n.contr.Idx) :
    (dot_S64x128_S64x128_S64x64_1_1_0_0_n_n.rhsIdx i c 1).val = (c ⟨0, by decide⟩).val :=
  dot_S64x128_S64x128_S64x64_1_1_0_0_n_n.rhsIdx_val_of_single rfl i c

theorem mm_proj (a : FVec Ideal S64x128 .f32) (b : FVec Ideal S64x128 .f32) (p : Fin 64) (r : Fin 64) :
    matmul dot_S64x128_S64x128_S64x64_1_1_0_0_n_n none a b (constant (F := Ideal) S64x64 .f32 0x00000000#32) (ix2 p r)
      = ∑ k : Fin 128, a (ix2 p k) * b (ix2 r k) := by
  simp only [matmul]
  rw [Ideal.matmul_constant_zero_apply, ← Equiv.sum_comp (contrEquiv1 dot_S64x128_S64x128_S64x64_1_1_0_0_n_n 128 rfl rfl).symm]
  refine Finset.sum_congr rfl fun k _ => ?_
  have hk := contrEquiv1_symm_val dot_S64x128_S64x128_S64x64_1_1_0_0_n_n 128 rfl rfl k
  have el : dot_S64x128_S64x128_S64x64_1_1_0_0_n_n.lhsIdx (ix2 p r) ((contrEquiv1 dot_S64x128_S64x128_S64x64_1_1_0_0_n_n 128 rfl rfl).symm k) = ix2 p k := funext fun x => Fin.ext (by
    match x with
    | ⟨0, _⟩ => exact dP_lhs0 _ _
    | ⟨1, _⟩ => exact (dP_lhs1 _ _).trans hk)
  have er : dot_S64x128_S64x128_S64x64_1_1_0_0_n_n.rhsIdx (ix2 p r) ((contrEquiv1 dot_S64x128_S64x128_S64x64_1_1_0_0_n_n 128 rfl rfl).symm k) = ix2 r k := funext fun x => Fin.ext (by
    match x with
    | ⟨0, _⟩ => exact dP_rhs0 _ _
    | ⟨1, _⟩ => exact (dP_rhs1 _ _).trans hk)
  rw [el, er]

theorem dS_lhs0 (i : S64x16384.Idx) (c : dot_S64x65_S65x16384_S64x16384_1_0_0_1_n_n.contr.Idx) :
    (dot_S64x65_S65x16384_S64x16384_1_0_0_1_n_n.lhsIdx i c 0).val = (i 0).val := by
  unfold DotDims.lhsIdx
  rw [dif_neg (show ¬(0 : Fin S64x65.rank) ∈ dot_S64x65_S65x16384_S64x16384_1_0_0_1_n_n.lhsBatch by decide), dif_pos (show (0 : Fin S64x65.rank) ∈ dot_S64x65_S65x16384_S64x16384_1_0_0_1_n_n.lhsNonContracting by decide)]
  rfl
theorem dS_lhs1 (i : S64x16384.Idx) (c : dot_S64x65_S65x16384_S64x16384_1_0_0_1_n_n.contr.Idx) :
    (dot_S64x65_S65x16384_S64x16384_1_0_0_1_n_n.lhsIdx i c 1).val = (c ⟨0, by decide⟩).val :=
  dot_S64x65_S65x16384_S64x16384_1_0_0_1_n_n.lhsIdx_val_of_single rfl i c
theorem dS_rhs1 (i : S64x16384.Idx) (c : dot_S64x65_S65x16384_S64x16384_1_0_0_1_n_n.contr.Idx) :
    (dot_S64x65_S65x16384_S64x16384_1_0_0_1_n_n.rhsIdx i c 1).val = (i 1).val := by
  unfold DotDims.rhsIdx
  rw [dif_neg (show ¬(1 : Fin S65x16384.rank) ∈ dot_S64x65_S65x16384_S64x16384_1_0_0_1_n_n.rhsBatch by decide), dif_pos (show (1 : Fin S65x16384.rank) ∈ dot_S64x65_S65x16384_S64x16384_1_0_0_1_n_n.rhsNonContracting by decide)]
  rfl
theorem dS_rhs0 (i : S64x16384.Idx) (c : dot_S64x65_S65x16384_S64x16384_1_0_0_1_n_n.contr.Idx) :
    (dot_S64x65_S65x16384_S64x16384_1_0_0_1_n_n.rhsIdx i c 0).val = (c ⟨0, by decide⟩).val :=
  dot_S64x65_S65x16384_S64x16384_1_0_0_1_n_n.rhsIdx_val_of_single rfl i c

theorem mm_score (a : FVec Ideal S64x65 .f32) (b : FVec Ideal S65x16384 .f32) (p : Fin 64) (r : Fin 16384) :
    matmul dot_S64x65_S65x16384_S64x16384_1_0_0_1_n_n none a b (constant (F := Ideal) S64x16384 .f32 0x00000000#32) (ix2 p r)
      = ∑ k : Fin 65, a (ix2 p k) * b (ix2 k r) := by
  simp only [matmul]
  rw [Ideal.matmul_constant_zero_apply, ← Equiv.sum_comp (contrEquiv1 dot_S64x65_S65x16384_S64x16384_1_0_0_1_n_n 65 rfl rfl).symm]
  refine Finset.sum_congr rfl fun k _ => ?_
  have hk := contrEquiv1_symm_val dot_S64x65_S65x16384_S64x16384_1_0_0_1_n_n 65 rfl rfl k
  have el : dot_S64x65_S65x16384_S64x16384_1_0_0_1_n_n.lhsIdx (ix2 p r) ((contrEquiv1 dot_S64x65_S65x16384_S64x16384_1_0_0_1_n_n 65 rfl rfl).symm k) = ix2 p k := funext fun x => Fin.ext (by
    match x with
    | ⟨0, _⟩ => exact dS_lhs0 _ _
    | ⟨1, _⟩ => exact (dS_lhs1 _ _).trans hk)
  have er : dot_S64x65_S65x16384_S64x16384_1_0_0_1_n_n.rhsIdx (ix2 p r) ((contrEquiv1 dot_S64x65_S65x16384_S64x16384_1_0_0_1_n_n 65 rfl rfl).symm k) = ix2 k r := funext fun x => Fin.ext (by
    match x with
    | ⟨0, _⟩ => exact (dS_rhs0 _ _).trans hk
    | ⟨1, _⟩ => exact dS_rhs1 _ _)
  rw [el, er]

/-! ## A sum and a maximum along the lanes, read at a row -/

theorem sum_lanes64 (src : FVec Ideal S64x64 .f32) (q : Fin 64) :
    multiReduction (F := Ideal) .add [1] S64 src 0x00000000#32 reduces_S64x64_S64 (.inl rfl) rfl (ix1 q)
      = ∑ e : Fin 64, src (ix2 q e) := by
  refine (Ideal.multiReduction_add_single src 0x00000000#32 reduces_S64x64_S64 (.inl rfl) rfl (ix1 q)).trans ?_
  exact Finset.sum_congr rfl fun k _ => congrArg src (funext fun a => Fin.ext (by
    match a with
    | ⟨0, _⟩ => rfl
    | ⟨1, _⟩ => rfl))

theorem sum_lanes16384 (src : FVec Ideal S64x16384 .f32) (q : Fin 64) :
    multiReduction (F := Ideal) .add [1] S64 src 0x00000000#32 reduces_S64x16384_S64 (.inl rfl) rfl (ix1 q)
      = ∑ m : Fin 16384, src (ix2 q m) := by
  refine (Ideal.multiReduction_add_single src 0x00000000#32 reduces_S64x16384_S64 (.inl rfl) rfl (ix1 q)).trans ?_
  exact Finset.sum_congr rfl fun k _ => congrArg src (funext fun a => Fin.ext (by
    match a with
    | ⟨0, _⟩ => rfl
    | ⟨1, _⟩ => rfl))

theorem max_lanes16384 (src : FVec Ideal S64x16384 .f32) (q : Fin 64) :
    multiReduction (F := Ideal) .maximumf [1] S64 src 0xFF800000#32 reduces_S64x16384_S64 (.inl rfl) rfl (ix1 q)
      = (Finset.univ : Finset (Fin 16384)).fold max cNegInf (fun m => src (ix2 q m)) := by
  refine (Ideal.multiReduction_maximumf_single src 0xFF800000#32 reduces_S64x16384_S64 (.inl rfl) rfl (ix1 q)).trans ?_
  refine congrArg (fun f => (Finset.univ : Finset (Fin 16384)).fold max cNegInf f) (funext fun k => congrArg src ?_)
  exact funext fun a => Fin.ext (by
    match a with
    | ⟨0, _⟩ => rfl
    | ⟨1, _⟩ => rfl)

/-! ## Layout: a lane vector as a column, a column spread over the lanes, the unit axis of a block -/

section Layout
variable {α : Type}

/-- A vector of 64 entries viewed as a column reads its entry. -/
theorem col_apply (x : S64.Idx → α) (q : Fin 64) (z : Fin 1) :
    shapeCast S64x1 x shapeCasts_S64_S64x1 (ix2 q z) = x (ix1 q) :=
  shapeCast_apply x _ _ _ (by
    rw [Shape.rowMajor_val_one, Shape.rowMajor_val_two]
    show q.val = q.val * 1 + z.val
    omega)

/-- A column spread over 65 lanes reads the column's entry of the row. -/
theorem spread65_apply (x : S64x1.Idx → α) (q : Fin 64) (j : Fin 65) :
    broadcastTo S64x65 x broadcasts_S64x1_S64x65 (ix2 q j) = x (ix2 q (0 : Fin 1)) := by
  refine broadcastTo_apply x _ (ix2 q j) (ix2 q (0 : Fin 1)) fun ax => ?_
  match ax with
  | ⟨0, _⟩ => rfl
  | ⟨1, _⟩ => rfl

theorem spread16384_apply (x : S64x1.Idx → α) (q : Fin 64) (m : Fin 16384) :
    broadcastTo S64x16384 x broadcasts_S64x1_S64x16384 (ix2 q m) = x (ix2 q (0 : Fin 1)) := by
  refine broadcastTo_apply x _ (ix2 q m) (ix2 q (0 : Fin 1)) fun ax => ?_
  match ax with
  | ⟨0, _⟩ => rfl
  | ⟨1, _⟩ => rfl

/-- The 64 exponentials joined with a column: below 64 the left piece. -/
theorem join_left (x₁ : S64x64.Idx → α) (x₂ : S64x1.Idx → α) (q : Fin 64) (j : Fin 65) (hj : j.val < 64) :
    concatenate S64x65 1 [⟨S64x64, x₁⟩, ⟨S64x1, x₂⟩] concatenates_S64x64_S64x1_S64x65_d1 (ix2 q j) = x₁ (ix2 q ⟨j.val, hj⟩) := by
  refine concatenate_pair_apply_left (1 : Fin S64x65.rank) x₁ x₂ _ (ix2 q j) rfl (ix2 q ⟨j.val, hj⟩) fun b => ?_
  match b with
  | ⟨0, _⟩ => rfl
  | ⟨1, _⟩ => rfl

/-- … and at 64 the column. -/
theorem join_right (x₁ : S64x64.Idx → α) (x₂ : S64x1.Idx → α) (q : Fin 64) (j : Fin 65) (hj : ¬ j.val < 64) :
    concatenate S64x65 1 [⟨S64x64, x₁⟩, ⟨S64x1, x₂⟩] concatenates_S64x64_S64x1_S64x65_d1 (ix2 q j) = x₂ (ix2 q (0 : Fin 1)) := by
  refine concatenate_pair_apply_right (1 : Fin S64x65.rank) x₁ x₂ _ (ix2 q j) rfl rfl (ix2 q (0 : Fin 1)) (fun b hb => ?_) ?_
  · match b with
    | ⟨0, _⟩ => rfl
    | ⟨1, _⟩ => exact absurd rfl hb
  · show 0 + 64 = j.val
    have := j.isLt
    omega

end Layout

/-! ## The stages of the kernel's arithmetic, named

The masked weights of a batch's block of queries, as the kernel computes them from its three loaded blocks: the same
operations in the same order, each stage a definition of its own so that it is read at an index once. -/

section Stages
variable (x0 : Vec Ideal S1x64x128 .f32) (x1 : Vec Ideal S64x128 .f32) (x3 : Vec Ideal S65x16384 .f32)

/-- The projected queries. -/
def kProj : FVec Ideal S64x64 .f32 :=
  matmul (φ₁ := .f32) (φ₂ := .f32) dot_S64x128_S64x128_S64x64_1_1_0_0_n_n none
    (shapeCast S64x128 x0 shapeCasts_S1x64x128_S64x128) x1 (constant S64x64 .f32 0x00000000#32)

/-- Their exponentials, four times over. -/
def kEx : FVec Ideal S64x64 .f32 :=
  exp (mulf (kProj x0 x1) (broadcast S64x64 (Scalar.ofBits .f32 0x40800000#32)))

/-- One plus the row sums, as a column. -/
def kDen : FVec Ideal S64x1 .f32 :=
  addf (broadcast S64x1 (Scalar.ofBits .f32 0x3F800000#32))
    (shapeCast S64x1 (multiReduction .add [1] S64 (kEx x0 x1) 0x00000000#32 reduces_S64x64_S64 (.inl rfl) rfl) shapeCasts_S64_S64x1)

/-- The queries on the sphere. -/
def kQs : FVec Ideal S64x65 .f32 :=
  sqrt (divf
    (concatenate S64x65 1 [⟨S64x64, kEx x0 x1⟩, ⟨S64x1, broadcast S64x1 (Scalar.ofBits .f32 0x3F800000#32)⟩]
      concatenates_S64x64_S64x1_S64x65_d1)
    (broadcastTo S64x65 (kDen x0 x1) broadcasts_S64x1_S64x65))

/-- The scores against every memory key. -/
def kScore : FVec Ideal S64x16384 .f32 :=
  matmul (φ₁ := .f32) (φ₂ := .f32) dot_S64x65_S65x16384_S64x16384_1_0_0_1_n_n none (kQs x0 x1)
    (shapeCast S65x16384 x3 shapeCasts_S65x16384_S65x16384) (constant S64x16384 .f32 0x00000000#32)

/-- Their eighth powers, by three squarings. -/
def kS8 : FVec Ideal S64x16384 .f32 :=
  have v19 : FVec Ideal S64x16384 .f32 := mulf (kScore x0 x1 x3) (kScore x0 x1 x3)
  have v20 : FVec Ideal S64x16384 .f32 := mulf v19 v19
  mulf v20 v20

/-- The row maxima, as a column. -/
def kMx : FVec Ideal S64x1 .f32 :=
  shapeCast S64x1 (multiReduction .maximumf [1] S64 (kS8 x0 x1 x3) 0xFF800000#32 reduces_S64x16384_S64 (.inl rfl) rfl) shapeCasts_S64_S64x1

/-- The thresholds, as a column. -/
def kThr : FVec Ideal S64x1 .f32 :=
  select (cmpf .olt (kMx x0 x1 x3) (broadcast S64x1 (Scalar.ofBits .f32 0x3F000000#32)))
    (mulf (broadcast S64x1 (Scalar.ofBits .f32 0x3F666666#32)) (kMx x0 x1 x3))
    (broadcast S64x1 (Scalar.ofBits .f32 0x3F000000#32))

/-- The masked weights. -/
def kMsk : FVec Ideal S64x16384 .f32 :=
  select (cmpf .olt (kS8 x0 x1 x3) (broadcastTo S64x16384 (kThr x0 x1 x3) broadcasts_S64x1_S64x16384))
    (broadcast S64x16384 (Scalar.ofBits .f32 0x00000000#32)) (kS8 x0 x1 x3)

/-- The kernel's masked weights are these stages composed. -/
theorem pay2_eq : k0_pay2 x0 x1 x3 = kMsk x0 x1 x3 := rfl

end Stages

/-! ## Each stage read at an index -/

section StagesRead
variable (Q : Arr3 4 64 128) (Wq : Arr2 64 128) (K : Arr2 16384 65) (b : Fin 4)
variable (x0 : Vec Ideal S1x64x128 .f32) (x1 : Vec Ideal S64x128 .f32) (x3 : Vec Ideal S65x16384 .f32)
variable (h0 : ∀ (q : Fin 64) (d : Fin 128), x0 (ix3 (0 : Fin 1) q d) = Q (ix3 b q d))
variable (h1 : ∀ (e : Fin 64) (d : Fin 128), x1 (ix2 e d) = Wq (ix2 e d))
variable (h3 : ∀ (j : Fin 65) (m : Fin 16384), x3 (ix2 j m) = K (ix2 m j))
include h0 h1

theorem kProj_apply (q e : Fin 64) : kProj x0 x1 (ix2 q e) = proj Q Wq b q e := by
  unfold kProj proj
  rw [mm_proj]
  refine Finset.sum_congr rfl fun d _ => ?_
  rw [shapeCast_1ab_ab_apply, h0, h1]

theorem kEx_apply (q e : Fin 64) : kEx x0 x1 (ix2 q e) = ex Q Wq b q e := by
  unfold ex cFour
  show Ideal.exp (kProj x0 x1 (ix2 q e) * Ideal.ofBits .f32 0x40800000#32) = _
  rw [kProj_apply Q Wq b x0 x1 h0 h1]

theorem kDen_apply (q : Fin 64) (z : Fin 1) : kDen x0 x1 (ix2 q z) = den Q Wq b q := by
  unfold den cOne
  show Ideal.ofBits .f32 0x3F800000#32
      + shapeCast S64x1 (multiReduction (F := Ideal) .add [1] S64 (kEx x0 x1) 0x00000000#32 reduces_S64x64_S64 (.inl rfl) rfl)
          shapeCasts_S64_S64x1 (ix2 q z) = _
  rw [col_apply, sum_lanes64]
  exact congrArg _ (Finset.sum_congr rfl fun e _ => kEx_apply Q Wq b x0 x1 h0 h1 q e)

theorem kQs_apply (q : Fin 64) (j : Fin 65) : kQs x0 x1 (ix2 q j) = qs Q Wq b q j := by
  unfold qs num
  show Ideal.sqrt (Ideal.div
      (concatenate S64x65 1 [⟨S64x64, kEx x0 x1⟩, ⟨S64x1, broadcast S64x1 (Scalar.ofBits (F := Ideal) .f32 0x3F800000#32)⟩]
        concatenates_S64x64_S64x1_S64x65_d1 (ix2 q j))
      (broadcastTo S64x65 (kDen x0 x1) broadcasts_S64x1_S64x65 (ix2 q j))) = _
  rw [spread65_apply, kDen_apply Q Wq b x0 x1 h0 h1]
  by_cases hj : j.val < 64
  · rw [dif_pos hj, join_left _ _ q j hj, kEx_apply Q Wq b x0 x1 h0 h1]
  · rw [dif_neg hj, join_right _ _ q j hj]
    rfl

include h3

theorem kScore_apply (q : Fin 64) (m : Fin 16384) : kScore x0 x1 x3 (ix2 q m) = score Q Wq K b q m := by
  unfold kScore score
  rw [mm_score]
  refine Finset.sum_congr rfl fun j _ => ?_
  rw [kQs_apply Q Wq b x0 x1 h0 h1, shapeCast_self, h3]

theorem kS8_apply (q : Fin 64) (m : Fin 16384) : kS8 x0 x1 x3 (ix2 q m) = s8 Q Wq K b q m := by
  unfold s8 pow8
  show ((kScore x0 x1 x3 (ix2 q m) * kScore x0 x1 x3 (ix2 q m)) * (kScore x0 x1 x3 (ix2 q m) * kScore x0 x1 x3 (ix2 q m)))
      * ((kScore x0 x1 x3 (ix2 q m) * kScore x0 x1 x3 (ix2 q m)) * (kScore x0 x1 x3 (ix2 q m) * kScore x0 x1 x3 (ix2 q m))) = _
  rw [kScore_apply Q Wq K b x0 x1 x3 h0 h1 h3]

theorem kMx_apply (q : Fin 64) (z : Fin 1) : kMx x0 x1 x3 (ix2 q z) = mx Q Wq K b q := by
  unfold kMx mx
  rw [col_apply, max_lanes16384]
  exact congrArg (fun f => (Finset.univ : Finset (Fin 16384)).fold max cNegInf f)
    (funext fun m => kS8_apply Q Wq K b x0 x1 x3 h0 h1 h3 q m)

theorem kThr_apply (q : Fin 64) (z : Fin 1) : kThr x0 x1 x3 (ix2 q z) = thr Q Wq K b q := by
  unfold kThr thr cHalf cNineTenths
  rw [select_apply, cmpf_apply, mulf_apply, broadcast_apply, broadcast_apply, Ideal.cmpf_def,
    kMx_apply Q Wq K b x0 x1 x3 h0 h1 h3]
  simp only [Ideal.ofBits_def]

theorem kMsk_apply (q : Fin 64) (m : Fin 16384) : kMsk x0 x1 x3 (ix2 q m) = msk Q Wq K b q m := by
  unfold kMsk msk
  rw [select_apply, cmpf_apply, broadcast_apply, Ideal.cmpf_def, spread16384_apply,
    kThr_apply Q Wq K b x0 x1 x3 h0 h1 h3, kS8_apply Q Wq K b x0 x1 x3 h0 h1 h3]
  simp only [Ideal.ofBits_def, Ideal.ofBits_zero_f32]

/-- The kernel's masked weights at an index. -/
theorem pay2_apply (q : Fin 64) (m : Fin 16384) : k0_pay2 x0 x1 x3 (ix2 q m) = msk Q Wq K b q m := by
  rw [pay2_eq]
  exact kMsk_apply Q Wq K b x0 x1 x3 h0 h1 h3 q m

/-- The sum of a row's masked weights. -/
theorem pay3_apply (q : Fin 64) (z : Fin 1) : k0_pay3 x0 x1 x3 (ix2 q z) = wsum Q Wq K b q := by
  unfold wsum
  show shapeCast S64x1 (multiReduction (F := Ideal) .add [1] S64 (k0_pay2 x0 x1 x3) 0x00000000#32 reduces_S64x16384_S64 (.inl rfl) rfl)
      shapeCasts_S64_S64x1 (ix2 q z) = _
  rw [col_apply, sum_lanes16384]
  exact Finset.sum_congr rfl fun m _ => pay2_apply Q Wq K b x0 x1 x3 h0 h1 h3 q m

/-- The first stretch of the masked weights. -/
theorem pay4_apply (q : Fin 64) (k : Fin 2048) : k0_pay4 x0 x1 x3 (ix2 q k) = msk Q Wq K b q (mAt 0 k) :=
  (BlockTail.slice0_at (k0_pay2 x0 x1 x3) q k).trans (pay2_apply Q Wq K b x0 x1 x3 h0 h1 h3 q (mAt 0 k))

end StagesRead

/-! ## The stored block is the specified read -/

theorem payload_eq (Q : Arr3 4 64 128) (Wq : Arr2 64 128) (Wr : Arr2 128 64) (K : Arr2 16384 65) (Vm : Arr3 4 16384 64) (b : Fin 4)
    (x0 : Vec Ideal S1x64x128 .f32) (x1 x2 : Vec Ideal S64x128 .f32) (x3 : Vec Ideal S65x16384 .f32)
    (x4 x5 x6 x7 x8 x9 x10 x11 : Vec Ideal S1x64x2048 .f32)
    (h0 : ∀ (q : Fin 64) (d : Fin 128), x0 (ix3 (0 : Fin 1) q d) = Q (ix3 b q d))
    (h1 : ∀ (e : Fin 64) (d : Fin 128), x1 (ix2 e d) = Wq (ix2 e d))
    (h2 : ∀ (e : Fin 64) (v : Fin 128), x2 (ix2 e v) = Wr (ix2 v e))
    (h3 : ∀ (j : Fin 65) (m : Fin 16384), x3 (ix2 j m) = K (ix2 m j))
    (h4 : ∀ (e : Fin 64) (k : Fin 2048), x4 (ix3 (0 : Fin 1) e k) = Vm (ix3 b (mAt 0 k) e))
    (h5 : ∀ (e : Fin 64) (k : Fin 2048), x5 (ix3 (0 : Fin 1) e k) = Vm (ix3 b (mAt 1 k) e))
    (h6 : ∀ (e : Fin 64) (k : Fin 2048), x6 (ix3 (0 : Fin 1) e k) = Vm (ix3 b (mAt 2 k) e))
    (h7 : ∀ (e : Fin 64) (k : Fin 2048), x7 (ix3 (0 : Fin 1) e k) = Vm (ix3 b (mAt 3 k) e))
    (h8 : ∀ (e : Fin 64) (k : Fin 2048), x8 (ix3 (0 : Fin 1) e k) = Vm (ix3 b (mAt 4 k) e))
    (h9 : ∀ (e : Fin 64) (k : Fin 2048), x9 (ix3 (0 : Fin 1) e k) = Vm (ix3 b (mAt 5 k) e))
    (h10 : ∀ (e : Fin 64) (k : Fin 2048), x10 (ix3 (0 : Fin 1) e k) = Vm (ix3 b (mAt 6 k) e))
    (h11 : ∀ (e : Fin 64) (k : Fin 2048), x11 (ix3 (0 : Fin 1) e k) = Vm (ix3 b (mAt 7 k) e))
    (q : Fin 64) (v : Fin 128) :
    k0_pay1 (k0_pay3 x0 x1 x3) (k0_pay5 (k0_pay2 x0 x1 x3) (k0_pay4 x0 x1 x3) x4 x5 x6 x7 x8 x9 x10)
        (k0_pay6 (k0_pay2 x0 x1 x3)) x11 x2 (ix3 (0 : Fin 1) q v)
      = out Q Wq Wr K Vm b q v := by
  have hW : ∀ (m : Fin 16384), k0_pay2 x0 x1 x3 (ix2 q m) = msk Q Wq K b q m :=
    fun m => pay2_apply Q Wq K b x0 x1 x3 h0 h1 h3 q m
  refine (BlockTail.pay1_at (k0_pay3 x0 x1 x3) _ (k0_pay6 (k0_pay2 x0 x1 x3)) x11 x2 q v).trans ?_
  unfold out rd
  refine Finset.sum_congr rfl fun e _ => ?_
  rw [pay3_apply Q Wq K b x0 x1 x3 h0 h1 h3 q 0, h2 e v]
  refine congrArg (fun t => Ideal.div t (wsum Q Wq K b q + cEps) * Wr (ix2 v e)) ?_
  rw [BlockTail.pay5_at (k0_pay2 x0 x1 x3) (k0_pay4 x0 x1 x3) (fun q' k => BlockTail.slice0_at (k0_pay2 x0 x1 x3) q' k)
      x4 x5 x6 x7 x8 x9 x10 q e,
    BlockTail.sum_blocks (fun m => msk Q Wq K b q m * Vm (ix3 b m e))]
  simp only [BlockTail.pay6_at, hW, h4, h5, h6, h7, h8, h9, h10, h11]

end Cert.KernelIdeal.BlockValue

end
-- ==== Proof.KFinal.lean ====
/-
  The idealized kernel's result array is the function G of the five argument arrays.

  The three arrays the host writes before the launch are transposes of arguments: the keys [j,m] = K[m,j], the
  values [b,e,m] = Vm[b,m,e], the read projection [e,v] = Wr[v,e]. Grid point t serves batch t: its query block is
  rows (t,·,·) of the queries, the two projections and the keys are whole, and the eight value blocks are the eight
  consecutive stretches of 2048 memory slots of batch t. The point writes rows (t,·,·) of the result, and the four
  points' blocks cover the result array; so the array after the launch is G entry by entry.
-/
import proofs.«162409_g83107617177736_cont_sun_m_307_6_alg».proof.Proof.KIData
import proofs.«162409_g83107617177736_cont_sun_m_307_6_alg».proof.Proof.KValue
import proofs.«162409_g83107617177736_cont_sun_m_307_6_alg».proof.Proof.SpecRef
import Idealize.ShloMosaic.Lib.Pipeline.Value
import Idealize.ShloMosaic.Lib.ValueIdx
import Idealize.ShloMosaic.Lib.StableHlo.Run

noncomputable section

namespace Cert.KernelIdeal.Final

open Cert.KernelIdeal Cert.KernelIdeal.Gen Cert.KernelIdeal.Hand Cert.SphereRead
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A grid point as the batch it serves. -/
def batch (t : Fin cfg0.N) : Fin 4 := ⟨t.val, by have h1 := t.isLt; have h2 : cfg0.N = 4 := N_0; omega⟩

/-! ## The arrays the host transposes wrote, read at an index -/

theorem V_v0 (c : Dev nD) : (V m c main_v0 : S65x16384.Idx → EReal)
    = transpose S65x16384 [1, 0] (m ((c : Thread nD τ).loc main_arg3)) transposes_S16384x65_S65x16384_1_0 := by
  dsimp only [V, hostOps0]; after_results

theorem V_v1 (c : Dev nD) : (V m c main_v1 : S4x64x16384.Idx → EReal)
    = transpose S4x64x16384 [0, 2, 1] (m ((c : Thread nD τ).loc main_arg4)) transposes_S4x16384x64_S4x64x16384_0_2_1 := by
  dsimp only [V, hostOps0]; after_results

theorem V_v2 (c : Dev nD) : (V m c main_v2 : S64x128.Idx → EReal)
    = transpose S64x128 [1, 0] (m ((c : Thread nD τ).loc main_arg2)) transposes_S128x64_S64x128_1_0 := by
  dsimp only [V, hostOps0]; after_results

theorem V_v0_apply (c : Dev nD) (j : Fin 65) (k : Fin 16384) :
    V m c main_v0 (ix2 j k) = m ((c : Thread nD τ).loc main_arg3) (ix2 k j) := by
  rw [V_v0]
  exact transpose_apply _ _ _ _ (ix2 k j) (fun b => by match b with | ⟨0, _⟩ => rfl | ⟨1, _⟩ => rfl)

theorem V_v1_apply (c : Dev nD) (b : Fin 4) (e : Fin 64) (k : Fin 16384) :
    V m c main_v1 (ix3 b e k) = m ((c : Thread nD τ).loc main_arg4) (ix3 b k e) := by
  rw [V_v1]
  exact transpose_apply _ _ _ _ (ix3 b k e) (fun a => by match a with | ⟨0, _⟩ => rfl | ⟨1, _⟩ => rfl | ⟨2, _⟩ => rfl)

theorem V_v2_apply (c : Dev nD) (e : Fin 64) (v : Fin 128) :
    V m c main_v2 (ix2 e v) = m ((c : Thread nD τ).loc main_arg2) (ix2 v e) := by
  rw [V_v2]
  exact transpose_apply _ _ _ _ (ix2 v e) (fun b => by match b with | ⟨0, _⟩ => rfl | ⟨1, _⟩ => rfl)

/-! ## The index maps over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_12.index t (0 : Fin 3) = t.val ∧ win0_12.index t (1 : Fin 3) = 0 ∧ win0_12.index t (2 : Fin 3) = 0 :=
  (by decide +kernel : ∀ t : Fin grid0.N, _)

theorem idx_facts_v : ∀ t : Fin cfg0.N,
    win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 1
    ∧ win0_6.index t (0 : Fin 3) = t.val ∧ win0_6.index t (1 : Fin 3) = 0 ∧ win0_6.index t (2 : Fin 3) = 2
    ∧ win0_7.index t (0 : Fin 3) = t.val ∧ win0_7.index t (1 : Fin 3) = 0 ∧ win0_7.index t (2 : Fin 3) = 3
    ∧ win0_8.index t (0 : Fin 3) = t.val ∧ win0_8.index t (1 : Fin 3) = 0 ∧ win0_8.index t (2 : Fin 3) = 4
    ∧ win0_9.index t (0 : Fin 3) = t.val ∧ win0_9.index t (1 : Fin 3) = 0 ∧ win0_9.index t (2 : Fin 3) = 5
    ∧ win0_10.index t (0 : Fin 3) = t.val ∧ win0_10.index t (1 : Fin 3) = 0 ∧ win0_10.index t (2 : Fin 3) = 6
    ∧ win0_11.index t (0 : Fin 3) = t.val ∧ win0_11.index t (1 : Fin 3) = 0 ∧ win0_11.index t (2 : Fin 3) = 7 :=
  (by decide +kernel : ∀ t : Fin grid0.N, _)

/-! ## The input blocks at a point, read at an index -/

theorem blk0 (c : Dev nD) (t : Fin cfg0.N) (q : Fin 64) (d : Fin 128) :
    iblk m c 0 t (ix3 (0 : Fin 1) q d) = m ((c : Thread nD τ).loc main_arg0) (ix3 (batch t) q d) := by
  show V m c main_arg0 (((cfg0.win 0).blk t).view.emb (ix3 (0 : Fin 1) q d)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 64 + 1 * q.val = q.val; omega
  | ⟨2, _⟩ => show win0_0.index t (2 : Fin 3) * 128 + 1 * d.val = d.val; omega

theorem blk1 (c : Dev nD) (t : Fin cfg0.N) (e : Fin 64) (d : Fin 128) :
    iblk m c 1 t (ix2 e d) = m ((c : Thread nD τ).loc main_arg1) (ix2 e d) := by
  show V m c main_arg1 (((cfg0.win 1).blk t).view.emb (ix2 e d)) = _
  rw [V_main_arg1]
  refine congrArg _ (funext fun a => Fin.ext ?_)
  have hf := idx_facts t
  match a with
  | ⟨0, _⟩ => show win0_1.index t (0 : Fin 2) * 64 + 1 * e.val = e.val; omega
  | ⟨1, _⟩ => show win0_1.index t (1 : Fin 2) * 128 + 1 * d.val = d.val; omega

theorem blk2 (c : Dev nD) (t : Fin cfg0.N) (e : Fin 64) (v : Fin 128) :
    iblk m c 2 t (ix2 e v) = m ((c : Thread nD τ).loc main_arg2) (ix2 v e) := by
  show V m c main_v2 (((cfg0.win 2).blk t).view.emb (ix2 e v)) = _
  refine (congrArg (V m c main_v2) (funext fun a => Fin.ext ?_)).trans (V_v2_apply m c e v)
  have hf := idx_facts t
  match a with
  | ⟨0, _⟩ => show win0_2.index t (0 : Fin 2) * 64 + 1 * e.val = e.val; omega
  | ⟨1, _⟩ => show win0_2.index t (1 : Fin 2) * 128 + 1 * v.val = v.val; omega

theorem blk3 (c : Dev nD) (t : Fin cfg0.N) (j : Fin 65) (k : Fin 16384) :
    iblk m c 3 t (ix2 j k) = m ((c : Thread nD τ).loc main_arg3) (ix2 k j) := by
  show V m c main_v0 (((cfg0.win 3).blk t).view.emb (ix2 j k)) = _
  refine (congrArg (V m c main_v0) (funext fun a => Fin.ext ?_)).trans (V_v0_apply m c j k)
  have hf := idx_facts t
  match a with
  | ⟨0, _⟩ => show win0_3.index t (0 : Fin 2) * 65 + 1 * j.val = j.val; omega
  | ⟨1, _⟩ => show win0_3.index t (1 : Fin 2) * 16384 + 1 * k.val = k.val; omega

theorem blk4 (c : Dev nD) (t : Fin cfg0.N) (e : Fin 64) (k : Fin 2048) :
    iblk m c 4 t (ix3 (0 : Fin 1) e k) = m ((c : Thread nD τ).loc main_arg4) (ix3 (batch t) (mAt 0 k) e) := by
  show V m c main_v1 (((cfg0.win 4).blk t).view.emb (ix3 (0 : Fin 1) e k)) = _
  refine (congrArg (V m c main_v1) (funext fun a => Fin.ext ?_)).trans (V_v1_apply m c (batch t) e (mAt 0 k))
  have hf := idx_facts_v t
  match a with
  | ⟨0, _⟩ => show win0_4.index t (0 : Fin 3) * 1 + 1 * 0 = t.val; omega
  | ⟨1, _⟩ => show win0_4.index t (1 : Fin 3) * 64 + 1 * e.val = e.val; omega
  | ⟨2, _⟩ => show win0_4.index t (2 : Fin 3) * 2048 + 1 * k.val = 2048 * 0 + k.val; omega

theorem blk5 (c : Dev nD) (t : Fin cfg0.N) (e : Fin 64) (k : Fin 2048) :
    iblk m c 5 t (ix3 (0 : Fin 1) e k) = m ((c : Thread nD τ).loc main_arg4) (ix3 (batch t) (mAt 1 k) e) := by
  show V m c main_v1 (((cfg0.win 5).blk t).view.emb (ix3 (0 : Fin 1) e k)) = _
  refine (congrArg (V m c main_v1) (funext fun a => Fin.ext ?_)).trans (V_v1_apply m c (batch t) e (mAt 1 k))
  have hf := idx_facts_v t
  match a with
  | ⟨0, _⟩ => show win0_5.index t (0 : Fin 3) * 1 + 1 * 0 = t.val; omega
  | ⟨1, _⟩ => show win0_5.index t (1 : Fin 3) * 64 + 1 * e.val = e.val; omega
  | ⟨2, _⟩ => show win0_5.index t (2 : Fin 3) * 2048 + 1 * k.val = 2048 * 1 + k.val; omega

theorem blk6 (c : Dev nD) (t : Fin cfg0.N) (e : Fin 64) (k : Fin 2048) :
    iblk m c 6 t (ix3 (0 : Fin 1) e k) = m ((c : Thread nD τ).loc main_arg4) (ix3 (batch t) (mAt 2 k) e) := by
  show V m c main_v1 (((cfg0.win 6).blk t).view.emb (ix3 (0 : Fin 1) e k)) = _
  refine (congrArg (V m c main_v1) (funext fun a => Fin.ext ?_)).trans (V_v1_apply m c (batch t) e (mAt 2 k))
  have hf := idx_facts_v t
  match a with
  | ⟨0, _⟩ => show win0_6.index t (0 : Fin 3) * 1 + 1 * 0 = t.val; omega
  | ⟨1, _⟩ => show win0_6.index t (1 : Fin 3) * 64 + 1 * e.val = e.val; omega
  | ⟨2, _⟩ => show win0_6.index t (2 : Fin 3) * 2048 + 1 * k.val = 2048 * 2 + k.val; omega

theorem blk7 (c : Dev nD) (t : Fin cfg0.N) (e : Fin 64) (k : Fin 2048) :
    iblk m c 7 t (ix3 (0 : Fin 1) e k) = m ((c : Thread nD τ).loc main_arg4) (ix3 (batch t) (mAt 3 k) e) := by
  show V m c main_v1 (((cfg0.win 7).blk t).view.emb (ix3 (0 : Fin 1) e k)) = _
  refine (congrArg (V m c main_v1) (funext fun a => Fin.ext ?_)).trans (V_v1_apply m c (batch t) e (mAt 3 k))
  have hf := idx_facts_v t
  match a with
  | ⟨0, _⟩ => show win0_7.index t (0 : Fin 3) * 1 + 1 * 0 = t.val; omega
  | ⟨1, _⟩ => show win0_7.index t (1 : Fin 3) * 64 + 1 * e.val = e.val; omega
  | ⟨2, _⟩ => show win0_7.index t (2 : Fin 3) * 2048 + 1 * k.val = 2048 * 3 + k.val; omega

theorem blk8 (c : Dev nD) (t : Fin cfg0.N) (e : Fin 64) (k : Fin 2048) :
    iblk m c 8 t (ix3 (0 : Fin 1) e k) = m ((c : Thread nD τ).loc main_arg4) (ix3 (batch t) (mAt 4 k) e) := by
  show V m c main_v1 (((cfg0.win 8).blk t).view.emb (ix3 (0 : Fin 1) e k)) = _
  refine (congrArg (V m c main_v1) (funext fun a => Fin.ext ?_)).trans (V_v1_apply m c (batch t) e (mAt 4 k))
  have hf := idx_facts_v t
  match a with
  | ⟨0, _⟩ => show win0_8.index t (0 : Fin 3) * 1 + 1 * 0 = t.val; omega
  | ⟨1, _⟩ => show win0_8.index t (1 : Fin 3) * 64 + 1 * e.val = e.val; omega
  | ⟨2, _⟩ => show win0_8.index t (2 : Fin 3) * 2048 + 1 * k.val = 2048 * 4 + k.val; omega

theorem blk9 (c : Dev nD) (t : Fin cfg0.N) (e : Fin 64) (k : Fin 2048) :
    iblk m c 9 t (ix3 (0 : Fin 1) e k) = m ((c : Thread nD τ).loc main_arg4) (ix3 (batch t) (mAt 5 k) e) := by
  show V m c main_v1 (((cfg0.win 9).blk t).view.emb (ix3 (0 : Fin 1) e k)) = _
  refine (congrArg (V m c main_v1) (funext fun a => Fin.ext ?_)).trans (V_v1_apply m c (batch t) e (mAt 5 k))
  have hf := idx_facts_v t
  match a with
  | ⟨0, _⟩ => show win0_9.index t (0 : Fin 3) * 1 + 1 * 0 = t.val; omega
  | ⟨1, _⟩ => show win0_9.index t (1 : Fin 3) * 64 + 1 * e.val = e.val; omega
  | ⟨2, _⟩ => show win0_9.index t (2 : Fin 3) * 2048 + 1 * k.val = 2048 * 5 + k.val; omega

theorem blk10 (c : Dev nD) (t : Fin cfg0.N) (e : Fin 64) (k : Fin 2048) :
    iblk m c 10 t (ix3 (0 : Fin 1) e k) = m ((c : Thread nD τ).loc main_arg4) (ix3 (batch t) (mAt 6 k) e) := by
  show V m c main_v1 (((cfg0.win 10).blk t).view.emb (ix3 (0 : Fin 1) e k)) = _
  refine (congrArg (V m c main_v1) (funext fun a => Fin.ext ?_)).trans (V_v1_apply m c (batch t) e (mAt 6 k))
  have hf := idx_facts_v t
  match a with
  | ⟨0, _⟩ => show win0_10.index t (0 : Fin 3) * 1 + 1 * 0 = t.val; omega
  | ⟨1, _⟩ => show win0_10.index t (1 : Fin 3) * 64 + 1 * e.val = e.val; omega
  | ⟨2, _⟩ => show win0_10.index t (2 : Fin 3) * 2048 + 1 * k.val = 2048 * 6 + k.val; omega

theorem blk11 (c : Dev nD) (t : Fin cfg0.N) (e : Fin 64) (k : Fin 2048) :
    iblk m c 11 t (ix3 (0 : Fin 1) e k) = m ((c : Thread nD τ).loc main_arg4) (ix3 (batch t) (mAt 7 k) e) := by
  show V m c main_v1 (((cfg0.win 11).blk t).view.emb (ix3 (0 : Fin 1) e k)) = _
  refine (congrArg (V m c main_v1) (funext fun a => Fin.ext ?_)).trans (V_v1_apply m c (batch t) e (mAt 7 k))
  have hf := idx_facts_v t
  match a with
  | ⟨0, _⟩ => show win0_11.index t (0 : Fin 3) * 1 + 1 * 0 = t.val; omega
  | ⟨1, _⟩ => show win0_11.index t (1 : Fin 3) * 64 + 1 * e.val = e.val; omega
  | ⟨2, _⟩ => show win0_11.index t (2 : Fin 3) * 2048 + 1 * k.val = 2048 * 7 + k.val; omega

/-! ## What a point writes back, the cover, the final array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as the function of the five argument arrays. -/
abbrev Gm (c : Dev nD) : S4x64x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 12 t = ((cfg0.win 12).blk t).view.read (Elt Ideal) (Gm m c) := by
  show (cfg0.win 12).cut (grid0.coords t) ((dats m 0 c).after 12 t) = _
  rw [after0_12]
  unfold outBlock
  rw [View.canon_unit_zero hz3]
  simp only [View.ld_unit_zero (S := S1x64x128) hz3, View.ld_unit_zero (S := S64x128) hz2,
    View.ld_unit_zero (S := S65x16384) hz2, View.ld_unit_zero (S := S1x64x2048) hz3]
  funext j
  obtain ⟨z, q, v, rfl⟩ : ∃ (z : Fin 1) (q : Fin 64) (v : Fin 128), j = ix3 z q v := ⟨j 0, j 1, j 2, eq_ix3 j⟩
  obtain rfl : z = 0 := Subsingleton.elim _ _
  have he : ((cfg0.win 12).blk t).view.emb (ix3 (0 : Fin 1) q v) = ix3 (batch t) q v := by
    funext a; apply Fin.ext
    have hf := idx_facts t
    match a with
    | ⟨0, _⟩ => show win0_12.index t (0 : Fin 3) * 1 + 1 * 0 = t.val; omega
    | ⟨1, _⟩ => show win0_12.index t (1 : Fin 3) * 64 + 1 * q.val = q.val; omega
    | ⟨2, _⟩ => show win0_12.index t (2 : Fin 3) * 128 + 1 * v.val = v.val; omega
  show _ = Gm m c (((cfg0.win 12).blk t).view.emb (ix3 (0 : Fin 1) q v))
  rw [he]
  show _ = out _ _ _ _ _ (batch t) q v
  exact Cert.KernelIdeal.BlockValue.payload_eq _ _ _ _ _ (batch t) _ _ _ _ _ _ _ _ _ _ _ _
    (blk0 m c t) (blk1 m c t) (blk2 m c t) (blk3 m c t) (blk4 m c t) (blk5 m c t) (blk6 m c t) (blk7 m c t)
    (blk8 m c t) (blk9 m c t) (blk10 m c t) (blk11 m c t) q v

theorem mem_blk12 (t : Fin cfg0.N) (i : S4x64x128.Idx) :
    i ∈ ((cfg0.win 12).blk t).view.set ↔ ∀ a : Fin 3, win0_12.index t a * S1x64x128.size a ≤ (i a).val ∧ (i a).val < win0_12.index t a * S1x64x128.size a + S1x64x128.size a := by
  show i ∈ ((View.whole main_v3).slice (win0_12.rect t)).set ↔ _
  rw [View.set_slice_whole, Rect.mem_set_unit]
  exact Iff.rfl

theorem cover (i : S4x64x128.Idx) : ∃ t : Fin cfg0.N, (cfg0.win 12).flush t = true ∧ i ∈ ((cfg0.win 12).blk t).view.set := by
  have h0 : (i 0).val < 4 := (i 0).isLt
  have h1 : (i 1).val < 64 := (i 1).isLt
  have h2 : (i 2).val < 128 := (i 2).isLt
  obtain ⟨t, ht⟩ : ∃ t : Fin cfg0.N, t.val = (i 0).val := ⟨⟨(i 0).val, by have h : cfg0.N = 4 := N_0; omega⟩, rfl⟩
  refine ⟨t, flush0_12 t, ?_⟩
  rw [mem_blk12]
  have hf := idx_facts t
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 64 ≤ (i 1).val ∧ (i 1).val < win0_12.index t (1 : Fin 3) * 64 + 64; omega
  | ⟨2, _⟩ => show win0_12.index t (2 : Fin 3) * 128 ≤ (i 2).val ∧ (i 2).val < win0_12.index t (2 : Fin 3) * 128 + 128; omega

/-- The output array after the run is the function of the argument arrays. -/
theorem final (c : Dev nD) : (dats m 0 c).arrAt 12 cfg0.N = Gm m c :=
  (dats m 0 c).arrAt_eq_of_cover 12 (Gm m c) (fun t _ => flushed_eq m c t) (cover)

end Cert.KernelIdeal.Final

end
-- ==== Proof.RefRead.lean ====
/-
  The reference program read at an index, at the extended reals: each stage of the program, at explicit
  coordinates, is the corresponding stage of the reference's arrangement of the sphere read
  (Cert.SphereRead.GR), with no algebra beyond unfolding the operations and naming the literals.
-/
import proofs.«162409_g83107617177736_cont_sun_m_307_6_alg».proof.Proof.Gen.ReferenceIdeal.Read
import proofs.«162409_g83107617177736_cont_sun_m_307_6_alg».proof.Proof.SpecRef
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Read Cert.ReferenceIdeal.Gen Cert.SphereRead Idealize.ShloMosaic Idealize.ShloMosaic.ValueIdx
open scoped BigOperators

/-- Two rank-3 indices with the same three coordinates are equal. -/
local macro "idx3" : tactic =>
  `(tactic| (funext a; match a with | ⟨0, _⟩ => rfl | ⟨1, _⟩ => rfl | ⟨2, _⟩ => rfl))
/-- Two rank-2 indices with the same two coordinates are equal. -/
local macro "idx2" : tactic =>
  `(tactic| (funext a; match a with | ⟨0, _⟩ => rfl | ⟨1, _⟩ => rfl))

/-! ## The operand indices of each stage, by coordinates -/

theorem lidx0 (b : Fin 4) (q : Fin 64) (e : Fin 64) (k : Fin 128) : lidx_main_v0 (ix3 b q e) k = ix3 b q k := by idx3
theorem ridx0 (b : Fin 4) (q : Fin 64) (e : Fin 64) (k : Fin 128) : ridx_main_v0 (ix3 b q e) k = ix2 e k := by idx2
theorem idx4 (b : Fin 4) (q : Fin 64) (k : Fin 64) : idx_main_v4 (ix2 b q) k = ix3 b q k := by idx3
theorem idx5 (b : Fin 4) (q : Fin 64) (z : Fin 1) : idx_main_v5 (ix3 b q z) = ix2 b q := by idx2
theorem idx8 (b : Fin 4) (q : Fin 64) (e : Fin 64) : idx_main_v8 (ix3 b q e) = ix3 b q (⟨0, Nat.one_pos⟩ : Fin 1) := by idx3
theorem lidx14 (b : Fin 4) (q : Fin 64) (m : Fin 16384) (k : Fin 65) : lidx_main_v14 (ix3 b q m) k = ix3 b q k := by idx3
theorem ridx14 (b : Fin 4) (q : Fin 64) (m : Fin 16384) (k : Fin 65) : ridx_main_v14 (ix3 b q m) k = ix2 m k := by idx2
theorem idx23 (b : Fin 4) (q : Fin 64) (z : Fin 1) : idx_main_v23 (ix3 b q z) = ix2 b q := by idx2
theorem idx24 (b : Fin 4) (q : Fin 64) (m : Fin 16384) : idx_main_v24 (ix3 b q m) = ix3 b q (⟨0, Nat.one_pos⟩ : Fin 1) := by idx3
theorem idx27 (b : Fin 4) (q : Fin 64) (k : Fin 16384) : idx_main_v27 (ix2 b q) k = ix3 b q k := by idx3
theorem idx28 (b : Fin 4) (q : Fin 64) (z : Fin 1) : idx_main_v28 (ix3 b q z) = ix2 b q := by idx2
theorem idx31 (b : Fin 4) (q : Fin 64) (m : Fin 16384) : idx_main_v31 (ix3 b q m) = ix3 b q (⟨0, Nat.one_pos⟩ : Fin 1) := by idx3
theorem lidx33 (b : Fin 4) (q : Fin 64) (e : Fin 64) (k : Fin 16384) : lidx_main_v33 (ix3 b q e) k = ix3 b q k := by idx3
theorem ridx33 (b : Fin 4) (q : Fin 64) (e : Fin 64) (k : Fin 16384) : ridx_main_v33 (ix3 b q e) k = ix3 b k e := by idx3
theorem lidx34 (b : Fin 4) (q : Fin 64) (v : Fin 128) (k : Fin 64) : lidx_main_v34 (ix3 b q v) k = ix3 b q k := by idx3
theorem ridx34 (b : Fin 4) (q : Fin 64) (v : Fin 128) (k : Fin 64) : ridx_main_v34 (ix3 b q v) k = ix2 v k := by idx2

/-! ## The stages -/

section
variable (x0 : (⟨S4x64x128, .f32⟩ : BufTy).Contents (Elt Ideal)) (x1 : (⟨S64x128, .f32⟩ : BufTy).Contents (Elt Ideal))
  (x2 : (⟨S128x64, .f32⟩ : BufTy).Contents (Elt Ideal)) (x3 : (⟨S16384x65, .f32⟩ : BufTy).Contents (Elt Ideal))
  (x4 : (⟨S4x16384x64, .f32⟩ : BufTy).Contents (Elt Ideal))

/-- The projected query: the first product's element is the sum over the query dimension. -/
theorem v0_at (b : Fin 4) (q : Fin 64) (e : Fin 64) :
    val_main_v0 (F := Ideal) x0 x1 (ix3 b q e) = proj x0 x1 b q e := by
  rw [val_main_v0_apply]
  refine Finset.sum_congr rfl fun k _ => ?_
  rw [lidx0, ridx0]

/-- Divided by the temperature word. -/
theorem v2_at (b : Fin 4) (q : Fin 64) (e : Fin 64) :
    val_main_v2 (F := Ideal) x0 x1 (ix3 b q e) = Ideal.div (proj x0 x1 b q e) cQuarter := by
  rw [val_main_v2_apply, v0_at, val_main_v1_apply, val_main_cst_apply]
  rfl

/-- The exponential. -/
theorem v3_at (b : Fin 4) (q : Fin 64) (e : Fin 64) :
    val_main_v3 (F := Ideal) x0 x1 (ix3 b q e) = exR x0 x1 b q e := by
  rw [val_main_v3_apply, v2_at]
  rfl

/-- The sum of the exponentials over the embedding dimension (from the zero word). -/
theorem v4_at (b : Fin 4) (q : Fin 64) :
    val_main_v4 (F := Ideal) x0 x1 (ix2 b q) = ∑ e : Fin 64, exR x0 x1 b q e := by
  rw [val_main_v4_apply, val_main_cst_0_apply]
  show Ideal.ofBits .f32 0x00000000#32 + _ = _
  rw [Ideal.ofBits_zero_f32, zero_add]
  refine Finset.sum_congr rfl fun k _ => ?_
  rw [idx4, v3_at]

/-- The denominator: one plus that sum. -/
theorem v7_at (b : Fin 4) (q : Fin 64) (z : Fin 1) :
    val_main_v7 (F := Ideal) x0 x1 (ix3 b q z) = denR x0 x1 b q := by
  rw [val_main_v7_apply, val_main_v6_apply, val_main_cst_1_apply, val_main_v5_apply, idx5, v4_at]
  rfl

/-- The exponentials over the denominator. -/
theorem v9_at (b : Fin 4) (q : Fin 64) (e : Fin 64) :
    val_main_v9 (F := Ideal) x0 x1 (ix3 b q e) = Ideal.div (exR x0 x1 b q e) (denR x0 x1 b q) := by
  rw [val_main_v9_apply, v3_at, val_main_v8_apply, idx8, v7_at]
  rfl

/-- One over the denominator. -/
theorem v11_at (b : Fin 4) (q : Fin 64) (z : Fin 1) :
    val_main_v11 (F := Ideal) x0 x1 (ix3 b q z) = Ideal.div cOne (denR x0 x1 b q) := by
  rw [val_main_v11_apply, v7_at, val_main_v10_apply, val_main_cst_2_apply]
  rfl

/-- The two quotients joined along the last axis: below 64 the first array, at 64 the second. -/
theorem v12_at (b : Fin 4) (q : Fin 64) (j : Fin 65) :
    val_main_v12 (F := Ideal) x0 x1 (ix3 b q j) = quoR x0 x1 b q j := by
  unfold val_main_v12 quoR
  by_cases h : j.val < 64
  · rw [dif_pos h]
    refine (concatenate_pair_apply_left (t := S4x64x65) (s₁ := S4x64x64) (s₂ := S4x64x1) _ _ _
      concatenates_S4x64x64_S4x64x1_S4x64x65_d2 (ix3 b q j) rfl (ix3 b q (⟨j.val, h⟩ : Fin 64)) (fun a => by
        match a with
        | ⟨0, _⟩ => rfl
        | ⟨1, _⟩ => rfl
        | ⟨2, _⟩ => rfl)).trans ?_
    exact v9_at x0 x1 b q ⟨j.val, h⟩
  · rw [dif_neg h]
    refine (concatenate_pair_apply_right (t := S4x64x65) (s₁ := S4x64x64) (s₂ := S4x64x1) _ _ _
      concatenates_S4x64x64_S4x64x1_S4x64x65_d2 (ix3 b q j) rfl rfl (ix3 b q (⟨0, Nat.one_pos⟩ : Fin 1)) (fun a ha => by
        match a with
        | ⟨0, _⟩ => rfl
        | ⟨1, _⟩ => rfl
        | ⟨2, _⟩ => exact absurd rfl ha) ?_).trans ?_
    · show 0 + 64 = j.val
      have := j.isLt
      omega
    · exact v11_at x0 x1 b q _

/-- The query on the sphere. -/
theorem v13_at (b : Fin 4) (q : Fin 64) (j : Fin 65) :
    val_main_v13 (F := Ideal) x0 x1 (ix3 b q j) = qsR x0 x1 b q j := by
  rw [val_main_v13_apply, v12_at]
  rfl

/-- The score against a memory key. -/
theorem v14_at (b : Fin 4) (q : Fin 64) (m : Fin 16384) :
    val_main_v14 (F := Ideal) x0 x1 x3 (ix3 b q m) = scoreR x0 x1 x3 b q m := by
  rw [val_main_v14_apply]
  refine Finset.sum_congr rfl fun k _ => ?_
  rw [lidx14, ridx14, v13_at]

/-- Its eighth power, by the power function. -/
theorem v16_at (b : Fin 4) (q : Fin 64) (m : Fin 16384) :
    val_main_v16 (F := Ideal) x0 x1 x3 (ix3 b q m) = s8R x0 x1 x3 b q m := by
  rw [val_main_v16_apply, v14_at, val_main_v15_apply, val_main_cst_3_apply]
  rfl

/-- A maximum over the last axis from an initial value is the fold of `max` over that axis's coordinates. -/
theorem reduce_max_at (y : S4x64x16384.Idx → EReal) (init : S_.Idx → EReal) (b : Fin 4) (q : Fin 64) :
    Host.reduce (FloatOps.maximumf (F := Ideal) (φ := .f32)) y init reducesTo_S4x64x16384_S4x64_d2 h_S_ (ix2 b q)
      = (Finset.univ : Finset (Fin 16384)).fold max (init (Shape.Idx.first h_S_)) (fun m => y (ix3 b q m)) := by
  have h : S4x64x16384.Reduces [2] S4x64 := by decide
  have e : (y ∘ h.lift (ix2 b q)) = fun m : Fin 16384 => y (ix3 b q m) :=
    funext fun k => congrArg y (funext fun a => Fin.ext (by
      match a with
      | ⟨0, _⟩ => rfl
      | ⟨1, _⟩ => rfl
      | ⟨2, _⟩ => rfl))
  refine (Host.reduce_eq_fold_single (FloatOps.maximumf (F := Ideal) (φ := .f32)) y init
    reducesTo_S4x64x16384_S4x64_d2 h h_S_ (ix2 b q)).trans ?_
  exact congrArg (fun f : Fin 16384 → EReal =>
    (Finset.univ : Finset (Fin 16384)).fold max (init (Shape.Idx.first h_S_)) f) e

/-- The largest eighth power of a row. -/
theorem v17_at (b : Fin 4) (q : Fin 64) :
    val_main_v17 (F := Ideal) x0 x1 x3 (ix2 b q) = mxR x0 x1 x3 b q := by
  unfold val_main_v17
  rw [reduce_max_at, val_main_cst_4_apply]
  unfold mxR
  refine congrArg (fun f : Fin 16384 → EReal => (Finset.univ : Finset (Fin 16384)).fold max cNegInf f) ?_
  funext m
  exact v16_at x0 x1 x3 b q m

/-- The adaptive threshold. -/
theorem v22_at (b : Fin 4) (q : Fin 64) :
    val_main_v22 (F := Ideal) x0 x1 x3 (ix2 b q) = thrR x0 x1 x3 b q := by
  rw [val_main_v22_apply, val_main_v19_apply, val_main_v21_apply, v17_at, val_main_v18_apply, val_main_cst_5_apply,
    val_main_v20_apply, val_main_cst_6_apply, val_main_call0_v1_apply, val_main_call0_v0_apply, val_main_cst_7_apply]
  rfl

/-- The masked eighth powers. -/
theorem v26_at (b : Fin 4) (q : Fin 64) (m : Fin 16384) :
    val_main_v26 (F := Ideal) x0 x1 x3 (ix3 b q m) = mskR x0 x1 x3 b q m := by
  rw [val_main_v26_apply, val_main_v25_apply, v16_at, val_main_v24_apply, idx24, val_main_v23_apply, idx23, v22_at,
    val_main_call1_v1_apply, val_main_call1_v0_apply, val_main_cst_8_apply]
  show Scalar.select _ (Ideal.ofBits .f32 0x00000000#32) _ = _
  rw [Ideal.ofBits_zero_f32]
  rfl

/-- Their sum over the memory slots (from the zero word). -/
theorem v27_at (b : Fin 4) (q : Fin 64) :
    val_main_v27 (F := Ideal) x0 x1 x3 (ix2 b q) = wsumR x0 x1 x3 b q := by
  rw [val_main_v27_apply, val_main_cst_9_apply]
  show Ideal.ofBits .f32 0x00000000#32 + _ = _
  rw [Ideal.ofBits_zero_f32, zero_add]
  refine Finset.sum_congr rfl fun k _ => ?_
  rw [idx27, v26_at]

/-- The sum plus the small word. -/
theorem v30_at (b : Fin 4) (q : Fin 64) (z : Fin 1) :
    val_main_v30 (F := Ideal) x0 x1 x3 (ix3 b q z) = wsumR x0 x1 x3 b q + cEps := by
  rw [val_main_v30_apply, val_main_v28_apply, idx28, v27_at, val_main_v29_apply, val_main_cst_10_apply]
  rfl

/-- The normalised weights. -/
theorem v32_at (b : Fin 4) (q : Fin 64) (m : Fin 16384) :
    val_main_v32 (F := Ideal) x0 x1 x3 (ix3 b q m) = wgtR x0 x1 x3 b q m := by
  rw [val_main_v32_apply, v26_at, val_main_v31_apply, idx31, v30_at]
  rfl

/-- The weighted read of the memory values. -/
theorem v33_at (b : Fin 4) (q : Fin 64) (e : Fin 64) :
    val_main_v33 (F := Ideal) x0 x1 x3 x4 (ix3 b q e) = rdR x0 x1 x3 x4 b q e := by
  rw [val_main_v33_apply]
  refine Finset.sum_congr rfl fun k _ => ?_
  rw [lidx33, ridx33, v32_at]

/-- The read projection. -/
theorem v34_at (b : Fin 4) (q : Fin 64) (v : Fin 128) :
    val_main_v34 (F := Ideal) x0 x1 x2 x3 x4 (ix3 b q v) = outR x0 x1 x2 x3 x4 b q v := by
  rw [val_main_v34_apply]
  refine Finset.sum_congr rfl fun k _ => ?_
  rw [lidx34, ridx34, v33_at]

/-- The reference program's result is the sphere read in the reference's arrangement, at every index. -/
theorem ref_eq : val_main_v34 (F := Ideal) x0 x1 x2 x3 x4 = GR x0 x1 x2 x3 x4 := by
  funext i
  obtain ⟨b, q, v, rfl⟩ : ∃ b q v, i = ix3 b q v := ⟨i 0, i 1, i 2, eq_ix3 i⟩
  rw [v34_at, GR_apply]

end

end Cert.ReferenceIdeal.RefValue

end
-- ==== Proof.Consts.lean ====
/-
  The float literals whose VALUES the algebra between the two arrangements needs, as the reals their words denote:
  4 and 1/4 (multiplying by the one is dividing by the other), 8 (the exponent of the power function), 1 (the
  denominators are positive), and the positive ε added to the sum of the weights.
-/
import proofs.«162409_g83107617177736_cont_sun_m_307_6_alg».proof.Proof.SpecRef

noncomputable section

namespace Cert.SphereRead

open Idealize.ShloMosaic

theorem cFour_eq : cFour = ((4 : ℝ) : EReal) := by
  unfold cFour; simp [Ideal.ofBits, Ideal.ieee, -EReal.coe_mul]; norm_num

theorem cQuarter_eq : cQuarter = ((1 / 4 : ℝ) : EReal) := by
  unfold cQuarter; simp [Ideal.ofBits, Ideal.ieee, -EReal.coe_mul]; norm_num

theorem cOne_eq : cOne = ((1 : ℝ) : EReal) := by
  unfold cOne; simp [Ideal.ofBits, Ideal.ieee, -EReal.coe_mul]; norm_num

theorem cEight_eq : cEight = ((8 : ℝ) : EReal) := by
  unfold cEight; simp [Ideal.ofBits, Ideal.ieee, -EReal.coe_mul]; norm_num

/-- ε is a positive real. -/
theorem cEps_pos : ∃ r : ℝ, 0 < r ∧ cEps = (r : EReal) := by
  unfold cEps
  refine ⟨_, ?_, by simp [Ideal.ofBits, Ideal.ieee, -EReal.coe_mul]; rfl⟩
  positivity

end Cert.SphereRead

end
-- ==== Proof.LibERealFinite.lean ====
/-
  General facts about extended reals that are real numbers, for proofs at the ideal instance that pass to the reals:
  the coercion of a finite sum, a quotient and a square root of reals, a comparison-driven selection as a conditional,
  and that an extended real whose magnitude compares below +∞ is a real.
-/
import Idealize.ShloMosaic.PureOps.Ideal
import Idealize.ShloMosaic.PureOps.Ideal.Laws

noncomputable section

namespace Cert.LibERealFinite

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul]; congr 1; field_simp

/-- The ideal square root of a nonnegative real is the real square root. -/
theorem sqrt_coe_nonneg {r : ℝ} (h : 0 ≤ r) : Ideal.sqrt (r : EReal) = (Real.sqrt r : EReal) := by
  rw [Ideal.sqrt_coe, if_neg (not_lt.mpr h)]

/-- Selecting by an ordered less-than comparison of extended reals is the conditional on the order. -/
theorem select_olt {α : Type} (a b : EReal) (x y : α) :
    Scalar.select (Ideal.cmp .olt a b) x y = if a < b then x else y := by
  by_cases h : a < b <;> simp [Scalar.select, Ideal.cmp, h]

/-- An extended real whose magnitude compares below the +∞ word of f32 is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Cert.LibERealFinite

end
-- ==== Proof.Algebra.lean ====
/-
  The two arrangements of the function agree on finite inputs.

  With every entry of the queries, the query projection, the keys and the values a real number, every intermediate
  quantity is a real: the projected query, its exponentials, the positive denominator 1 + ∑ exp, the point of the
  sphere √(num/den), the scores and their eighth powers. Hence
    * dividing the projected query by 1/4 is multiplying it by 4;
    * the power function at the exponent 8 is the eighth power by three squarings (a real base, a natural exponent);
    * the row maximum, the threshold and the mask are then the same expressions of the same eighth powers;
    * the masked weights are nonnegative reals, so wsum + ε is a positive real D, and
        ∑ m, (msk m / D) · v m  =  (∑ m, msk m · v m) / D
      is distributivity in the reals.
-/
import proofs.«162409_g83107617177736_cont_sun_m_307_6_alg».proof.Proof.Consts
import proofs.«162409_g83107617177736_cont_sun_m_307_6_alg».proof.Proof.LibERealFinite

noncomputable section

namespace Cert.SphereRead

open Idealize.ShloMosaic Idealize.ShloMosaic.ValueIdx Cert.LibERealFinite
open scoped BigOperators

section Reals

variable (Qr : (⟨3, ![4, 64, 128]⟩ : Shape).Idx → ℝ) (Wqr : (⟨2, ![64, 128]⟩ : Shape).Idx → ℝ)
  (Kr : (⟨2, ![16384, 65]⟩ : Shape).Idx → ℝ)

/-- The real quantities. -/
def pR (b : Fin 4) (q : Fin 64) (e : Fin 64) : ℝ := ∑ d : Fin 128, Qr (ix3 b q d) * Wqr (ix2 e d)
def eR (b : Fin 4) (q : Fin 64) (e : Fin 64) : ℝ := Real.exp (pR Qr Wqr b q e * 4)
def dR (b : Fin 4) (q : Fin 64) : ℝ := 1 + ∑ e : Fin 64, eR Qr Wqr b q e
def nR (b : Fin 4) (q : Fin 64) (j : Fin 65) : ℝ := if h : j.val < 64 then eR Qr Wqr b q ⟨j.val, h⟩ else 1
def qR (b : Fin 4) (q : Fin 64) (j : Fin 65) : ℝ := Real.sqrt (nR Qr Wqr b q j / dR Qr Wqr b q)
def scR (b : Fin 4) (q : Fin 64) (m : Fin 16384) : ℝ := ∑ j : Fin 65, qR Qr Wqr b q j * Kr (ix2 m j)
def p8R (x : ℝ) : ℝ := ((x * x) * (x * x)) * ((x * x) * (x * x))

theorem dR_pos (b : Fin 4) (q : Fin 64) : 0 < dR Qr Wqr b q := by
  have : 0 ≤ ∑ e : Fin 64, eR Qr Wqr b q e := Finset.sum_nonneg fun e _ => (Real.exp_pos _).le
  unfold dR; linarith

theorem nR_pos (b : Fin 4) (q : Fin 64) (j : Fin 65) : 0 < nR Qr Wqr b q j := by
  unfold nR; split
  · exact Real.exp_pos _
  · exact one_pos

theorem p8R_nonneg (x : ℝ) : 0 ≤ p8R x := mul_self_nonneg _

theorem p8R_eq_pow (x : ℝ) : p8R x = x ^ 8 := by unfold p8R; ring

variable {Q : Arr3 4 64 128} {Wq : Arr2 64 128} {K : Arr2 16384 65}
  (hQ : ∀ i, Q i = (Qr i : EReal)) (hWq : ∀ i, Wq i = (Wqr i : EReal)) (hK : ∀ i, K i = (Kr i : EReal))

include hQ hWq in
theorem proj_coe (b : Fin 4) (q : Fin 64) (e : Fin 64) : proj Q Wq b q e = (pR Qr Wqr b q e : EReal) := by
  unfold proj pR; rw [coe_sum]
  exact Finset.sum_congr rfl fun d _ => by rw [hQ, hWq, EReal.coe_mul]

include hQ hWq in
theorem ex_coe (b : Fin 4) (q : Fin 64) (e : Fin 64) : ex Q Wq b q e = (eR Qr Wqr b q e : EReal) := by
  unfold ex eR; rw [proj_coe Qr Wqr hQ hWq, cFour_eq, ← EReal.coe_mul, Ideal.exp_coe]

include hQ hWq in
theorem exR_coe (b : Fin 4) (q : Fin 64) (e : Fin 64) : exR Q Wq b q e = (eR Qr Wqr b q e : EReal) := by
  unfold exR eR
  rw [proj_coe Qr Wqr hQ hWq, cQuarter_eq, div_coe_coe _ (by norm_num : (1 / 4 : ℝ) ≠ 0), Ideal.exp_coe]
  congr 2; ring

include hQ hWq in
theorem den_coe (b : Fin 4) (q : Fin 64) : den Q Wq b q = (dR Qr Wqr b q : EReal) := by
  unfold den dR; rw [cOne_eq, EReal.coe_add, coe_sum]
  exact congrArg _ (Finset.sum_congr rfl fun e _ => ex_coe Qr Wqr hQ hWq b q e)

include hQ hWq in
theorem denR_coe (b : Fin 4) (q : Fin 64) : denR Q Wq b q = (dR Qr Wqr b q : EReal) := by
  unfold denR dR; rw [cOne_eq, EReal.coe_add, coe_sum]
  exact congrArg _ (Finset.sum_congr rfl fun e _ => exR_coe Qr Wqr hQ hWq b q e)

include hQ hWq in
theorem qs_coe (b : Fin 4) (q : Fin 64) (j : Fin 65) : qs Q Wq b q j = (qR Qr Wqr b q j : EReal) := by
  have hn : num Q Wq b q j = (nR Qr Wqr b q j : EReal) := by
    unfold num nR; split
    · exact ex_coe Qr Wqr hQ hWq b q _
    · exact cOne_eq
  unfold qs qR
  rw [hn, den_coe Qr Wqr hQ hWq, div_coe_coe _ (dR_pos Qr Wqr b q).ne',
    sqrt_coe_nonneg (div_pos (nR_pos Qr Wqr b q j) (dR_pos Qr Wqr b q)).le]

include hQ hWq in
theorem qsR_coe (b : Fin 4) (q : Fin 64) (j : Fin 65) : qsR Q Wq b q j = (qR Qr Wqr b q j : EReal) := by
  have hn : quoR Q Wq b q j = ((nR Qr Wqr b q j / dR Qr Wqr b q : ℝ) : EReal) := by
    unfold quoR nR; split
    · rw [exR_coe Qr Wqr hQ hWq, denR_coe Qr Wqr hQ hWq, div_coe_coe _ (dR_pos Qr Wqr b q).ne']
    · rw [cOne_eq, denR_coe Qr Wqr hQ hWq, div_coe_coe _ (dR_pos Qr Wqr b q).ne']
  unfold qsR qR
  rw [hn, sqrt_coe_nonneg (div_pos (nR_pos Qr Wqr b q j) (dR_pos Qr Wqr b q)).le]

include hQ hWq hK in
theorem score_coe (b : Fin 4) (q : Fin 64) (m : Fin 16384) : score Q Wq K b q m = (scR Qr Wqr Kr b q m : EReal) := by
  unfold score scR; rw [coe_sum]
  exact Finset.sum_congr rfl fun j _ => by rw [qs_coe Qr Wqr hQ hWq, hK, EReal.coe_mul]

include hQ hWq hK in
theorem scoreR_coe (b : Fin 4) (q : Fin 64) (m : Fin 16384) : scoreR Q Wq K b q m = (scR Qr Wqr Kr b q m : EReal) := by
  unfold scoreR scR; rw [coe_sum]
  exact Finset.sum_congr rfl fun j _ => by rw [qsR_coe Qr Wqr hQ hWq, hK, EReal.coe_mul]

include hQ hWq hK in
theorem s8_coe (b : Fin 4) (q : Fin 64) (m : Fin 16384) : s8 Q Wq K b q m = (p8R (scR Qr Wqr Kr b q m) : EReal) := by
  unfold s8 pow8 p8R; rw [score_coe Qr Wqr Kr hQ hWq hK]; simp only [EReal.coe_mul]

include hQ hWq hK in
/-- The power function at 8 is the eighth power by squarings. -/
theorem s8R_eq (b : Fin 4) (q : Fin 64) (m : Fin 16384) : s8R Q Wq K b q m = s8 Q Wq K b q m := by
  rw [s8_coe Qr Wqr Kr hQ hWq hK]
  unfold s8R; rw [scoreR_coe Qr Wqr Kr hQ hWq hK, cEight_eq, Ideal.pow_coe_coe, p8R_eq_pow]
  congr 1
  have := Real.rpow_natCast (scR Qr Wqr Kr b q m) 8
  simpa using this

include hQ hWq hK in
theorem mxR_eq (b : Fin 4) (q : Fin 64) : mxR Q Wq K b q = mx Q Wq K b q := by
  unfold mxR mx; congr 1; funext m; exact s8R_eq Qr Wqr Kr hQ hWq hK b q m

include hQ hWq hK in
theorem thrR_eq (b : Fin 4) (q : Fin 64) : thrR Q Wq K b q = thr Q Wq K b q := by
  unfold thrR thr; rw [mxR_eq Qr Wqr Kr hQ hWq hK]

include hQ hWq hK in
theorem mskR_eq (b : Fin 4) (q : Fin 64) (m : Fin 16384) : mskR Q Wq K b q m = msk Q Wq K b q m := by
  unfold mskR msk; rw [thrR_eq Qr Wqr Kr hQ hWq hK, s8R_eq Qr Wqr Kr hQ hWq hK]

/-- The masked weight as a real: zero below the threshold, the eighth power at or above it. -/
def mR (Q : Arr3 4 64 128) (Wq : Arr2 64 128) (K : Arr2 16384 65) (b : Fin 4) (q : Fin 64) (m : Fin 16384) : ℝ :=
  if s8 Q Wq K b q m < thr Q Wq K b q then 0 else p8R (scR Qr Wqr Kr b q m)

theorem mR_nonneg (b : Fin 4) (q : Fin 64) (m : Fin 16384) : 0 ≤ mR Qr Wqr Kr Q Wq K b q m := by
  unfold mR; split
  · exact le_rfl
  · exact p8R_nonneg _

include hQ hWq hK in
theorem msk_coe (b : Fin 4) (q : Fin 64) (m : Fin 16384) : msk Q Wq K b q m = (mR Qr Wqr Kr Q Wq K b q m : EReal) := by
  unfold msk mR; rw [select_olt]; split
  · exact EReal.coe_zero.symm
  · exact s8_coe Qr Wqr Kr hQ hWq hK b q m

include hQ hWq hK in
theorem wsum_coe (b : Fin 4) (q : Fin 64) : wsum Q Wq K b q = ((∑ m : Fin 16384, mR Qr Wqr Kr Q Wq K b q m : ℝ) : EReal) := by
  unfold wsum; rw [coe_sum]
  exact Finset.sum_congr rfl fun m _ => msk_coe Qr Wqr Kr hQ hWq hK b q m

include hQ hWq hK in
theorem wsumR_eq (b : Fin 4) (q : Fin 64) : wsumR Q Wq K b q = wsum Q Wq K b q := by
  unfold wsumR wsum; exact Finset.sum_congr rfl fun m _ => mskR_eq Qr Wqr Kr hQ hWq hK b q m

variable (Vr : (⟨3, ![4, 16384, 64]⟩ : Shape).Idx → ℝ) {Vm : Arr3 4 16384 64} (hV : ∀ i, Vm i = (Vr i : EReal))

include hQ hWq hK hV in
/-- Normalising the weights before the weighted read of the values, or the read after it, gives one number. -/
theorem rdR_eq (b : Fin 4) (q : Fin 64) (e : Fin 64) : rdR Q Wq K Vm b q e = rd Q Wq K Vm b q e := by
  obtain ⟨ε, hε, hεe⟩ := cEps_pos
  have hW : 0 ≤ ∑ m : Fin 16384, mR Qr Wqr Kr Q Wq K b q m := Finset.sum_nonneg fun m _ => mR_nonneg Qr Wqr Kr b q m
  have hD : (∑ m : Fin 16384, mR Qr Wqr Kr Q Wq K b q m) + ε ≠ 0 := by linarith
  have hden : wsum Q Wq K b q + cEps = (((∑ m : Fin 16384, mR Qr Wqr Kr Q Wq K b q m) + ε : ℝ) : EReal) := by
    rw [wsum_coe Qr Wqr Kr hQ hWq hK, hεe, EReal.coe_add]
  unfold rdR rd wgtR
  rw [wsumR_eq Qr Wqr Kr hQ hWq hK, hden]
  have hl : ∀ m : Fin 16384, Ideal.div (mskR Q Wq K b q m) (((∑ m : Fin 16384, mR Qr Wqr Kr Q Wq K b q m) + ε : ℝ) : EReal) * Vm (ix3 b m e)
      = ((mR Qr Wqr Kr Q Wq K b q m / ((∑ m : Fin 16384, mR Qr Wqr Kr Q Wq K b q m) + ε) * Vr (ix3 b m e) : ℝ) : EReal) := fun m => by
    rw [mskR_eq Qr Wqr Kr hQ hWq hK, msk_coe Qr Wqr Kr hQ hWq hK, div_coe_coe _ hD, hV, EReal.coe_mul]
  have hr : (∑ m : Fin 16384, msk Q Wq K b q m * Vm (ix3 b m e))
      = ((∑ m : Fin 16384, mR Qr Wqr Kr Q Wq K b q m * Vr (ix3 b m e) : ℝ) : EReal) := by
    rw [coe_sum]; exact Finset.sum_congr rfl fun m _ => by rw [msk_coe Qr Wqr Kr hQ hWq hK, hV, EReal.coe_mul]
  rw [Finset.sum_congr rfl fun m _ => hl m, hr, ← coe_sum, div_coe_coe _ hD]
  refine congrArg (fun x : ℝ => (x : EReal)) ?_
  rw [Finset.sum_div]
  exact Finset.sum_congr rfl fun m _ => by ring

end Reals

/-- On finite inputs the reference's arrangement is the kernel's. -/
theorem GR_eq_G (Q : Arr3 4 64 128) (Wq : Arr2 64 128) (Wr : Arr2 128 64) (K : Arr2 16384 65) (Vm : Arr3 4 16384 64)
    (hQ : ∀ i, ∃ r : ℝ, Q i = (r : EReal)) (hWq : ∀ i, ∃ r : ℝ, Wq i = (r : EReal))
    (hK : ∀ i, ∃ r : ℝ, K i = (r : EReal)) (hV : ∀ i, ∃ r : ℝ, Vm i = (r : EReal)) :
    GR Q Wq Wr K Vm = G Q Wq Wr K Vm := by
  choose Qr hQ using hQ
  choose Wqr hWq using hWq
  choose Kr hK using hK
  choose Vr hV using hV
  funext i
  obtain ⟨b, q, v, rfl⟩ : ∃ (b : Fin 4) (q : Fin 64) (v : Fin 128), i = ix3 b q v := ⟨i 0, i 1, i 2, eq_ix3 i⟩
  rw [GR_apply, G_apply]
  unfold outR out
  exact Finset.sum_congr rfl fun e _ => by rw [rdR_eq Qr Wqr Kr hQ hWq hK Vr hV b q e]

end Cert.SphereRead

end
-- ==== Proof.Finite.lean ====
/-
  The precondition read back: every entry of every input is a real number.

  The printed predicate is the conjunction, over the five inputs, of "every entry's magnitude is below +∞": an
  and-reduction of the comparisons |x| < +∞ to one truth value. The conjunction being true, each reduction is
  true, so each comparison is; and an extended real whose magnitude is below +∞ is neither infinity.
-/
import proofs.«162409_g83107617177736_cont_sun_m_307_6_alg».proof.Pre_finite_inputs
import proofs.«162409_g83107617177736_cont_sun_m_307_6_alg».proof.Proof.LibERealFinite
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs Cert.LibERealFinite

instance : Subsingleton S_.Idx := ⟨fun a b => funext fun d => d.elim0⟩

variable [Facts]
open Facts

theorem finite_of_pre (a0 : FVec Ideal S4x64x128 .f32) (a1 : FVec Ideal S64x128 .f32) (a2 : FVec Ideal S128x64 .f32)
    (a3 : FVec Ideal S16384x65 .f32) (a4 : FVec Ideal S4x16384x64 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ValueIdx.ix0
  dsimp only [fn, fn_part1] at h'
  obtain ⟨h0123, h4⟩ := IntOp.andi_eq_one.1 (show IntOp.andi _ _ = 1#1 from h')
  obtain ⟨h012, h3⟩ := IntOp.andi_eq_one.1 (show IntOp.andi _ _ = 1#1 from h0123)
  obtain ⟨h01, h2⟩ := IntOp.andi_eq_one.1 (show IntOp.andi _ _ = 1#1 from h012)
  obtain ⟨h0, h1⟩ := IntOp.andi_eq_one.1 (show IntOp.andi _ _ = 1#1 from h01)
  exact ⟨fun i => real_of_abs_lt (a0 i) (Host.reduce_andi_all _ _ _ _ _ h0 i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i),
    fun i => real_of_abs_lt (a4 i) (Host.reduce_andi_all _ _ _ _ _ h4 i)⟩

end Cert.FiniteInputs

end
-- ==== Proof.lean ====
/-
  The kernel computes the reference's function.

  Both programs take queries Q[b,q,d], a query projection Wq[e,d], a read projection Wr[v,e], memory keys K[m,j] and
  memory values Vm[b,m,e], and return, for each batch b and query row q,
      out v = ∑ e, rd e · Wr[v,e],   rd e = (∑ m, msk m · Vm[b,m,e]) / (∑ m, msk m + ε),
  where msk is the eighth power of the score of the query's point on the unit sphere against each key, set to zero
  below an adaptive threshold (Proof/Spec.lean has every stage).

  * The kernel side: one grid point per batch; the point's stored block, read at an index, is that function of the
    point's input blocks (Proof/KValue.lean, the eight partial contractions over 2048 memory slots regrouped into the
    one over 16384); the blocks are rows of the arguments and of their host-written transposes, and the four points
    cover the result (Proof/KFinal.lean). Eight windows read one array, each at an eighth share of it, so the launch
    is stated with the shares dealt by hand (Proof/KIFrame.lean, and Proof/KFrame.lean for the word-level program).
  * The reference side: its generated run, read one operation at a time, is the same function in the reference's
    arrangement (Proof/RefRead.lean over Proof/SpecRef.lean).
  * The two arrangements agree on finite inputs (Proof/Algebra.lean): x / (1/4) = 4·x, the power function at 8 is
    three squarings of a real, and normalising the weights before or after the weighted read is distributivity over
    a positive real denominator. Finiteness is the precondition read back (Proof/Finite.lean).
  The ideal pass rewrote nothing, so the idealization conjunct is trivial.
-/
import proofs.«162409_g83107617177736_cont_sun_m_307_6_alg».proof.Defs
import proofs.«162409_g83107617177736_cont_sun_m_307_6_alg».proof.Proof.Gen.Kernel
import proofs.«162409_g83107617177736_cont_sun_m_307_6_alg».proof.Proof.Gen.Kernel.Skeleton
import proofs.«162409_g83107617177736_cont_sun_m_307_6_alg».proof.Proof.Gen.Kernel.Launch
import proofs.«162409_g83107617177736_cont_sun_m_307_6_alg».proof.Proof.Gen.Kernel.Points
import proofs.«162409_g83107617177736_cont_sun_m_307_6_alg».proof.Proof.Gen.KernelIdeal
import proofs.«162409_g83107617177736_cont_sun_m_307_6_alg».proof.Proof.Gen.KernelIdeal.Skeleton
import proofs.«162409_g83107617177736_cont_sun_m_307_6_alg».proof.Proof.Gen.KernelIdeal.Launch
import proofs.«162409_g83107617177736_cont_sun_m_307_6_alg».proof.Proof.Gen.KernelIdeal.Points
import proofs.«162409_g83107617177736_cont_sun_m_307_6_alg».proof.Proof.Gen.ReferenceIdeal
import proofs.«162409_g83107617177736_cont_sun_m_307_6_alg».proof.Proof.Gen.ReferenceIdeal.Run
import proofs.«162409_g83107617177736_cont_sun_m_307_6_alg».proof.Proof.Gen.ReferenceIdeal.Read
import proofs.«162409_g83107617177736_cont_sun_m_307_6_alg».proof.Proof.Gen.Pre_finite_inputs
import proofs.«162409_g83107617177736_cont_sun_m_307_6_alg».proof.Proof.KIFrame
import proofs.«162409_g83107617177736_cont_sun_m_307_6_alg».proof.Proof.KFrame
import proofs.«162409_g83107617177736_cont_sun_m_307_6_alg».proof.Proof.KFinal
import proofs.«162409_g83107617177736_cont_sun_m_307_6_alg».proof.Proof.RefRead
import proofs.«162409_g83107617177736_cont_sun_m_307_6_alg».proof.Proof.Algebra
import proofs.«162409_g83107617177736_cont_sun_m_307_6_alg».proof.Proof.Finite
import Idealize.ShloMosaic.Adequacy
import Idealize.ShloMosaic.Init

noncomputable section

namespace Cert.Proof

open Idealize.ShloMosaic Idealize.ShloMosaic.TcCoe Idealize.SL.Sem

section
open Cert.KernelIdeal Cert.KernelIdeal.Gen Cert.KernelIdeal.Hand Cert.KernelIdeal.Final

/-- The idealized kernel's run: its result array is the function of the arguments, and the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 12).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)
end

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the function of the arguments: the kernel in
    its own arrangement, the reference in its arrangement, which agree because the precondition makes every entry
    a real. -/
theorem algebraic : Cert.algebraic_KernelIdeal_ReferenceIdeal := by
  intro m ρ m' ρ' hpre hagree
  refine ⟨fun c => Cert.KernelIdeal.Final.Gm m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4⟩ := Cert.FiniteInputs.finite_of_pre _ _ _ _ _ (hpre c)
  rw [Cert.ReferenceIdeal.Read.val_main_v34_eq, (hagree c).1, (hagree c).2.1, (hagree c).2.2.1, (hagree c).2.2.2.1,
    (hagree c).2.2.2.2, Cert.ReferenceIdeal.RefValue.ref_eq]
  exact Cert.SphereRead.GR_eq_G _ _ _ _ _ f0 f1 f3 f4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
